-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S16384x16384 : Shape := ⟨2, ![16384, 16384]⟩
abbrev S64x64 : Shape := ⟨2, ![64, 64]⟩
abbrev S64 : Shape := ⟨1, ![64]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S16384x64 .f32) (main_arg1 : FVec F S16384x16384 .f32) (main_arg2 : FVec F S64x64 .f32) (main_arg3 : FVec F S64 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S16384x64 : Shape := ⟨2, ![16384, 64]⟩
abbrev S16384x16384 : Shape := ⟨2, ![16384, 16384]⟩
abbrev S64x64 : Shape := ⟨2, ![64, 64]⟩
abbrev S64 : Shape := ⟨1, ![64]⟩
abbrev S2048x64 : Shape := ⟨2, ![2048, 64]⟩
abbrev S1x64 : Shape := ⟨2, ![1, 64]⟩
abbrev S256x4096 : Shape := ⟨2, ![256, 4096]⟩
abbrev S256x64 : Shape := ⟨2, ![256, 64]⟩
abbrev S4096x64 : Shape := ⟨2, ![4096, 64]⟩

abbrev nBuf : Space → Nat
  | .hbm => 7
  | .vmem => 17
  | .smem => 0
  | _ => 0

abbrev bufTy : (tb : Table) → Fin (tcTables nBuf tb) → BufTy
  | .hbm, ⟨0, _⟩ => ⟨S16384x64, .f32⟩
  | .hbm, ⟨1, _⟩ => ⟨S16384x16384, .f32⟩
  | .hbm, ⟨2, _⟩ => ⟨S64x64, .f32⟩
  | .hbm, ⟨3, _⟩ => ⟨S64, .f32⟩
  | .hbm, ⟨4, _⟩ => ⟨S16384x64, .f32⟩
  | .hbm, ⟨5, _⟩ => ⟨S1x64, .f32⟩
  | .hbm, ⟨6, _⟩ => ⟨S16384x64, .f32⟩
  | .local _ .vmem, ⟨0, _⟩ => ⟨S2048x64, .f32⟩
  | .local _ .vmem, ⟨1, _⟩ => ⟨S2048x64, .f32⟩
  | .local _ .vmem, ⟨2, _⟩ => ⟨S64x64, .f32⟩
  | .local _ .vmem, ⟨3, _⟩ => ⟨S2048x64, .f32⟩
  | .local _ .vmem, ⟨4, _⟩ => ⟨S2048x64, .f32⟩
  | .local _ .vmem, ⟨5, _⟩ => ⟨S256x4096, .f32⟩
  | .local _ .vmem, ⟨6, _⟩ => ⟨S256x4096, .f32⟩
  | .local _ .vmem, ⟨7, _⟩ => ⟨S256x4096, .f32⟩
  | .local _ .vmem, ⟨8, _⟩ => ⟨S256x4096, .f32⟩
  | .local _ .vmem, ⟨9, _⟩ => ⟨S256x4096, .f32⟩
  | .local _ .vmem, ⟨10, _⟩ => ⟨S256x4096, .f32⟩
  | .local _ .vmem, ⟨11, _⟩ => ⟨S256x4096, .f32⟩
  | .local _ .vmem, ⟨12, _⟩ => ⟨S256x4096, .f32⟩
  | .local _ .vmem, ⟨13, _⟩ => ⟨S16384x64, .f32⟩
  | .local _ .vmem, ⟨14, _⟩ => ⟨S1x64, .f32⟩
  | .local _ .vmem, ⟨15, _⟩ => ⟨S256x64, .f32⟩
  | .local _ .vmem, ⟨16, _⟩ => ⟨S256x64, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem5_0 : DmaSem sig := 14
abbrev cc1_sem6_0 : DmaSem sig := 15
abbrev cc1_sem6_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c1_i32 : BitVec 32 := 1#32
  let c0_i32 : BitVec 32 := 0#32
  ![arg0.toNat, c1_i32.toNat]

def cc1_transform_2 (i : grid1.Coords) : Fin 2 → Nat :=
  let arg0 : BitVec 32 := BitVec.ofNat 32 (i 0).val
  let c2_i32 : BitVec 32 := 2#32
  let c0_i32 : BitVec 32 := 0#32
  ![arg0.toNat, c2_i32.toNat]

def cc1_transform_3 (i : grid1.Coords) : Fin 2 → Nat :=
  let arg0 : BitVec 32 := BitVec.ofNat 32 (i 0).val
  let c3_i32 : BitVec 32 := 3#32
  let c0_i32 : BitVec 32 := 0#32
  ![arg0.toNat, c3_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S16384x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S256x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  inb_S2048x64_S2048x64_0_0 : ∀ a, (![0, 0] : Fin 2 → Nat) a + S2048x64.size a ≤ S2048x64.size a
  h_S2048x64 : 0 < S2048x64.numel
  inb_S64x64_S64x64_0_0 : ∀ a, (![0, 0] : Fin 2 → Nat) a + S64x64.size a ≤ S64x64.size a
  h_S64x64 : 0 < S64x64.numel
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S256x4096_S256x4096_0_0 : ∀ a, (![0, 0] : Fin 2 → Nat) a + S256x4096.size a ≤ S256x4096.size a
  h_S256x4096 : 0 < S256x4096.numel
  inb_S16384x64_S4096x64_0_0 : ∀ a, (![0, 0] : Fin 2 → Nat) a + S4096x64.size a ≤ S16384x64.size a
  h_S4096x64 : 0 < S4096x64.numel
  shapeCasts_S4096x64_S4096x64 : S4096x64.ShapeCasts S4096x64
  broadcasts_S1x64_S256x64 : S1x64.Broadcasts S256x64
  inb_S16384x64_S4096x64_4096_0 : ∀ a, (![4096, 0] : Fin 2 → Nat) a + S4096x64.size a ≤ S16384x64.size a
  inb_S16384x64_S4096x64_8192_0 : ∀ a, (![8192, 0] : Fin 2 → Nat) a + S4096x64.size a ≤ S16384x64.size a
  inb_S16384x64_S4096x64_12288_0 : ∀ a, (![12288, 0] : Fin 2 → Nat) a + S4096x64.size a ≤ S16384x64.size a
  inb_S256x64_S256x64_0_0 : ∀ a, (![0, 0] : Fin 2 → Nat) a + S256x64.size a ≤ S256x64.size a
  h_S256x64 : 0 < S256x64.numel
  dot_S2048x64_S64x64_S2048x64_1_0_0_1_n_n_wf : DotDims.WF S2048x64 S64x64 S2048x64 [1] [0] [0] [1] [] []
  dot_S256x4096_S4096x64_S256x64_1_0_0_1_n_n_wf : DotDims.WF S256x4096 S4096x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S16384x64.size a
  hwx0_0 : ∀ i : grid0.Coords, EltTy.bits .f32 = 32 ∨ (Rect.block (s := S16384x64) S2048x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x64.size a ≤ S16384x64.size a
  hwx0_2 : ∀ i : grid0.Coords, EltTy.bits .f32 = 32 ∨ (Rect.block (s := S16384x64) S2048x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S16384x16384.size a
  hwx1_0 : ∀ i : grid1.Coords, EltTy.bits .f32 = 32 ∨ (Rect.block (s := S16384x16384) S256x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x4096.size a ≤ S16384x16384.size a
  hwx1_1 : ∀ i : grid1.Coords, EltTy.bits .f32 = 32 ∨ (Rect.block (s := S16384x16384) S256x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x4096.size a ≤ S16384x16384.size a
  hwx1_2 : ∀ i : grid1.Coords, EltTy.bits .f32 = 32 ∨ (Rect.block (s := S16384x16384) S256x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x4096.size a ≤ S16384x16384.size a
  hwx1_3 : ∀ i : grid1.Coords, EltTy.bits .f32 = 32 ∨ (Rect.block (s := S16384x16384) S256x4096.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16384x64.size a ≤ S16384x64.size a
  hwx1_4 : ∀ i : grid1.Coords, EltTy.bits .f32 = 32 ∨ (Rect.block (s := S16384x64) S16384x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S256x64.size a ≤ S16384x64.size a
  hwx1_6 : ∀ i : grid1.Coords, EltTy.bits .f32 = 32 ∨ (Rect.block (s := S16384x64) S256x64.size (cc1_transform_6 i) (hinb1_6 i)).WholeWords (EltTy.packing .f32)

variable [Facts₀]

def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S256x4096_S4096x64_S256x64_1_0_0_1_n_n : DotDims S256x4096 S4096x64 S256x64 where
  lhsContracting := [1]
  rhsContracting := [0]
  lhsNonContracting := [0]
  rhsNonContracting := [1]
  lhsBatch := []
  rhsBatch := []
  wf := dot_S256x4096_S4096x64_S256x64_1_0_0_1_n_n_wf

abbrev win0_0 : Pipeline.Window sig grid0 :=
  Pipeline.Window.ofSpec (Memref.whole main_arg0) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S256x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S256x4096.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S256x4096.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v0) S16384x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v1) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v2) S256x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S16384x64 : Shape := ⟨2, ![16384, 64]⟩
abbrev S16384x16384 : Shape := ⟨2, ![16384, 16384]⟩
abbrev S64x64 : Shape := ⟨2, ![64, 64]⟩
abbrev S64 : Shape := ⟨1, ![64]⟩
abbrev S1x64 : Shape := ⟨2, ![1, 64]⟩

abbrev nBuf : Space → Nat
  | .hbm => 9
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S16384x16384, .f32⟩
  | .hbm, ⟨2, _⟩ => ⟨S64x64, .f32⟩
  | .hbm, ⟨3, _⟩ => ⟨S64, .f32⟩
  | .hbm, ⟨4, _⟩ => ⟨S16384x64, .f32⟩
  | .hbm, ⟨5, _⟩ => ⟨S16384x64, .f32⟩
  | .hbm, ⟨6, _⟩ => ⟨S1x64, .f32⟩
  | .hbm, ⟨7, _⟩ => ⟨S16384x64, .f32⟩
  | .hbm, ⟨8, _⟩ => ⟨S16384x64, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  dot_S16384x64_S64x64_S16384x64_1_0_0_1_n_n_wf : DotDims.WF S16384x64 S64x64 S16384x64 [1] [0] [0] [1] [] []
  dot_S16384x16384_S16384x64_S16384x64_1_0_0_1_n_n_wf : DotDims.WF S16384x16384 S16384x64 S16384x64 [1] [0] [0] [1] [] []

variable [Facts₀]

def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S16384x16384_S16384x64_S16384x64_1_0_0_1_n_n : DotDims S16384x16384 S16384x64 S16384x64 where
  lhsContracting := [1]
  rhsContracting := [0]
  lhsNonContracting := [0]
  rhsNonContracting := [1]
  lhsBatch := []
  rhsBatch := []
  wf := dot_S16384x16384_S16384x64_S16384x64_1_0_0_1_n_n_wf

class Facts : Prop extends Facts₀ where

variable [Facts]
-- ==== Proof.K_Region0.lean ====
/-
  Region 0 of the layer: the support matrix, X·W, computed in blocks of 2048 rows.

  Each grid point t reads rows 2048·t … 2048·t+2047 of X and the whole of W, multiplies them on the matrix unit
  into a zero accumulator, and stores the 2048×64 product over its output block. This module states what the
  body leaves in the output block as a function of the two input blocks, proves the body's triple, and packs
  the proof data of the pipeline: inputs stay as they are, the output block holds the product.
-/
import proofs.«181569_g66666482369178_cont_sun_m_896_4_alg».proof.Proof.Gen.Kernel.Launch
import proofs.«181569_g66666482369178_cont_sun_m_896_4_alg».proof.Proof.Gen.Kernel.Skeleton
import proofs.«181569_g66666482369178_cont_sun_m_896_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows of X: the staging buffer holds the block of the point, fetched at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights: fetched once, the block index never moves, so the buffer holds W at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S2048x64 := Rect.unit (s := S2048x64) ![0, 0] S2048x64.size inb_S2048x64_S2048x64_0_0
abbrev r0_1 : Rect S64x64 := Rect.unit (s := S64x64) ![0, 0] S64x64.size inb_S64x64_S64x64_0_0

/-- The output block after the body: one store of the product of the two input blocks over the whole block. -/
def out0_2 (x0 : Vec F S2048x64 .f32) (x1 : Vec F S64x64 .f32) : Vec F S2048x64 .f32 :=
  View.canon [⟨r0_0, k0_pay1 (View.ld x0 r0_0) (View.ld x1 r0_1)⟩]

/-- The one store covers the block. -/
theorem cover0_2 (p0 : Vec F S2048x64 .f32) (y : S2048x64.Idx) :
    ∃ pc ∈ ([⟨r0_0, p0⟩] : List (View.Piece (Elt F) S2048x64 .f32)), y ∈ pc.1.set :=
  View.cover_of_tiled [⟨r0_0, p0⟩] S2048x64.size (by rfl) y

set_option maxHeartbeats 1000000 in
/-- The body on whole staging buffers: the inputs are read and kept, the output ends at the product. -/
theorem sound_kernel0 (c : Dev nD) (E : Set ℕ) (i : grid0.Coords) (arg1 : Memref sig .tc .vmem S2048x64 .f32) (harg1 : arg1.IsWhole)
    (arg2 : Memref sig .tc .vmem S64x64 .f32) (harg2 : arg2.IsWhole) (arg3 : Memref sig .tc .vmem S2048x64 .f32) (harg3 : arg3.IsWhole)
    (x0 : Vec F S2048x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__support_body i arg1 harg1 arg2 harg2 arg3 harg3) K := by
  simp only [cc0__support_body_eq_skeleton]; unfold cc0__support_body_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the support pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the support pipeline, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K_Region1.lean ====
/-
  Region 1 of the layer: out = bias + A·S, one band of 256 rows of the adjacency matrix A per grid point.

  The band is read through four windows on the SAME array A, one per column shard of 4096 columns; the support
  matrix S (all 16384×64 of it) and the bias row are fetched once and stay resident. The body adds to the bias
  row, one after the other, the four products of a shard of the band with the matching 4096 rows of S, and
  stores the 256×64 result over its output block. This module states what the body leaves in the output block as
  a function of the six input blocks, proves the body's triple, and packs the pipeline's proof data. The four
  windows on A each hold a quarter of the array's share.
-/
import proofs.«181569_g66666482369178_cont_sun_m_896_4_alg».proof.Proof.Gen.Kernel.Launch
import proofs.«181569_g66666482369178_cont_sun_m_896_4_alg».proof.Proof.Gen.Kernel.Skeleton
import proofs.«181569_g66666482369178_cont_sun_m_896_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's staging buffer holds its block at every point, fetched there or not: an unfetched window's
    block index has not moved since the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

abbrev r1_a : Rect S256x4096 := Rect.unit (s := S256x4096) ![0, 0] S256x4096.size inb_S256x4096_S256x4096_0_0
abbrev r1_b : Rect S1x64 := Rect.unit (s := S1x64) ![0, 0] S1x64.size inb_S1x64_S1x64_0_0
abbrev r1_s0 : Rect S16384x64 := Rect.unit (s := S16384x64) ![0, 0] S4096x64.size inb_S16384x64_S4096x64_0_0
abbrev r1_s1 : Rect S16384x64 := Rect.unit (s := S16384x64) ![4096, 0] S4096x64.size inb_S16384x64_S4096x64_4096_0
abbrev r1_s2 : Rect S16384x64 := Rect.unit (s := S16384x64) ![8192, 0] S4096x64.size inb_S16384x64_S4096x64_8192_0
abbrev r1_s3 : Rect S16384x64 := Rect.unit (s := S16384x64) ![12288, 0] S4096x64.size inb_S16384x64_S4096x64_12288_0
abbrev r1_o : Rect S256x64 := Rect.unit (s := S256x64) ![0, 0] S256x64.size inb_S256x64_S256x64_0_0

/-- The output block after the body: one store, over the whole block, of the bias row plus the four shard products. -/
def out1_6 (x0 x1 x2 x3 : Vec F S256x4096 .f32) (x4 : Vec F S16384x64 .f32) (x5 : Vec F S1x64 .f32) : Vec F S256x64 .f32 :=
  View.canon [⟨r1_o, k1_pay1 (View.ld x5 r1_b) (View.ld x0 r1_a) (View.ld x4 r1_s0) (View.ld x1 r1_a) (View.ld x4 r1_s1)
    (View.ld x2 r1_a) (View.ld x4 r1_s2) (View.ld x3 r1_a) (View.ld x4 r1_s3)⟩]

/-- The one store covers the block. -/
theorem cover1_6 (p0 : Vec F S256x64 .f32) (y : S256x64.Idx) :
    ∃ pc ∈ ([⟨r1_o, p0⟩] : List (View.Piece (Elt F) S256x64 .f32)), y ∈ pc.1.set :=
  View.cover_of_tiled [⟨r1_o, p0⟩] S256x64.size (by rfl) y

set_option maxHeartbeats 4000000 in
/-- The body on whole staging buffers: the six inputs are read and kept, the output ends at `out1_6` of them. -/
theorem sound_kernel1 (c : Dev nD) (E : Set ℕ) (i : grid1.Coords)
    (arg1 : Memref sig .tc .vmem S256x4096 .f32) (harg1 : arg1.IsWhole) (arg2 : Memref sig .tc .vmem S256x4096 .f32) (harg2 : arg2.IsWhole)
    (arg3 : Memref sig .tc .vmem S256x4096 .f32) (harg3 : arg3.IsWhole) (arg4 : Memref sig .tc .vmem S256x4096 .f32) (harg4 : arg4.IsWhole)
    (arg5 : Memref sig .tc .vmem S16384x64 .f32) (harg5 : arg5.IsWhole) (arg6 : Memref sig .tc .vmem S1x64 .f32) (harg6 : arg6.IsWhole)
    (arg7 : Memref sig .tc .vmem S256x64 .f32) (harg7 : arg7.IsWhole)
    (x0 x1 x2 x3 : Vec F S256x4096 .f32) (x4 : Vec F S16384x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E (cc1__gcn_body i arg1 harg1 arg2 harg2 arg3 harg3 arg4 harg4 arg5 harg5 arg6 harg6 arg7 harg7) K := by
  simp only [cc1__gcn_body_eq_skeleton]; unfold cc1__gcn_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0
  subst hf1
  subst hf2
  subst hf3
  subst hf4
  subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-- The share of A each of its four windows holds: a quarter. -/
def q1 : Fin cfg1.W → PosShare TreeShare
  | ⟨0, _⟩ => fullShare.left.left
  | ⟨1, _⟩ => fullShare.left.right
  | ⟨2, _⟩ => fullShare.right.left
  | ⟨3, _⟩ => fullShare.right.right
  | _ => fullShare

/-- The proof data of the layer's pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q := q1
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t
    = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the layer's pipeline, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.LibShareQuarters.lean ====
/-
  A buffer held whole is the same buffer held four times at a quarter of the share.

  Shares form a binary tree: a share splits into its left and right halves, and a points-to at a share is the
  separating conjunction of the points-tos at the two halves, at the same contents. Splitting the full share twice
  gives four quarters; this is what lets one array be handed to four readers at once, and be put together again,
  unchanged, when they are done.
-/
import Idealize.ShloMosaic.Rules.PointsTo
import Idealize.SL.ProofMode

noncomputable section

namespace Idealize.ShloMosaic

open Idealize.SL
open Idealize.SL.RA Idealize.SL.Sem Idealize.SL.ProofMode
open Idealize.SL.BI (sProp)
open scoped Idealize.SL.BI
open Idealize.SL.BI.BIBase Idealize.SL.BI.Laws

variable {nD : Nat} {τ : Topo} {sig : RefSig} {Ix : Type} [DecidableEq Ix]
variable {Val : EltTy → Type} {Name : Type} [DecidableEq Name]
variable {U : Type} [URA U] {Lvl : Type}

local notation "𝕄" => MT nD τ sig Ix Val Name U Lvl

/-- The elements `I` of a buffer held at a share `q` are those elements held four times, at the four quarters of `q`
    (`q.left.left`, `q.left.right`, `q.right.left`, `q.right.right`), at the same contents; and back. -/
theorem pointsTo_quarters {ℓ : Loc nD τ sig} (I : Finset (Idx ℓ)) (q : PosShare TreeShare) (x : Buf Val ℓ) :
    (ℓ ↦[I]{q} x : sProp 𝕄) ⊣⊢ iprop((ℓ ↦[I]{q.left.left} x) ∗ (ℓ ↦[I]{q.left.right} x)
      ∗ (ℓ ↦[I]{q.right.left} x) ∗ (ℓ ↦[I]{q.right.right} x)) := by
  have h0 : (ℓ ↦[I]{q} x : sProp 𝕄) ⊣⊢ iprop((ℓ ↦[I]{q.left} x) ∗ ℓ ↦[I]{q.right} x) :=
    pointsTo_share (PosShare.mem_left_op_right _)
  have h1 : (ℓ ↦[I]{q.left} x : sProp 𝕄) ⊣⊢ iprop((ℓ ↦[I]{q.left.left} x) ∗ ℓ ↦[I]{q.left.right} x) :=
    pointsTo_share (PosShare.mem_left_op_right _)
  have h2 : (ℓ ↦[I]{q.right} x : sProp 𝕄) ⊣⊢ iprop((ℓ ↦[I]{q.right.left} x) ∗ ℓ ↦[I]{q.right.right} x) :=
    pointsTo_share (PosShare.mem_left_op_right _)
  constructor
  · iintro H
    ihave H := h0.1 $$ H
    icases H with ⟨Hl, Hr⟩
    ihave Hl := h1.1 $$ Hl
    icases Hl with ⟨Ha, Hb⟩
    ihave Hr := h2.1 $$ Hr
    icases Hr with ⟨Hc, Hd⟩
    isplitl [Ha]; · iexact Ha
    isplitl [Hb]; · iexact Hb
    isplitl [Hc]; · iexact Hc
    iexact Hd
  · iintro ⟨Ha, Hb, Hc, Hd⟩
    iapply h0.2
    isplitl [Ha Hb]
    · iapply h1.2
      isplitl [Ha]; · iexact Ha
      iexact Hb
    iapply h2.2
    isplitl [Hc]; · iexact Hc
    iexact Hd

end Idealize.ShloMosaic

end
-- ==== Proof.K_Run.lean ====
/-
  The whole run of the layer's program: support pipeline, the bias row reshaped on the host, layer pipeline.

  The buffer contents at each boundary are folded from the launch memory: the support pipeline leaves its output
  array at what its write-backs make of it and every other buffer as found; the reshape writes the bias row; the
  layer pipeline leaves its output array at what its write-backs make of it. The adjacency array is handed to the
  layer pipeline through four windows: its full share is dealt to them in quarters at the region's entry and put
  together again at its exit. The run's conclusion: every weakly fair execution terminates, and every unscoped
  buffer ends at the last boundary's contents.
-/
import proofs.«181569_g66666482369178_cont_sun_m_896_4_alg».proof.Proof.K_Region0
import proofs.«181569_g66666482369178_cont_sun_m_896_4_alg».proof.Proof.K_Region1
import proofs.«181569_g66666482369178_cont_sun_m_896_4_alg».proof.Proof.LibShareQuarters

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => m (c, b)
abbrev Vr0 : (c : Dev nD) → (b : Ref sig .tc) → Buf (Elt F) ((c : Thread nD τ).loc b) := fun c b => W0 m c b
/-- After the support pipeline: its arrays at what it leaves, every other buffer as found. -/
def W1 (c : Dev nD) : Valuation τ sig (Elt F) :=
  Pipeline.withArrays spec0 c (W0 m c) fun w => (dat0 (Vr0 m) c).arrAt w cfg0.N
theorem W1_arr (c : Dev nD) (w : Fin cfg0.W) :
    W1 m c (Proc.devRef .tc (Pipeline.arrRef spec0 w)) = (dat0 (Vr0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev Vr1 : (c : Dev nD) → (b : Ref sig .tc) → Buf (Elt F) ((c : Thread nD τ).loc b) := fun c b => W1 m c b
theorem hF0 (c : Dev nD) (w : Fin cfg0.W) : (dat0 (Vr0 m) c).arrAt w cfg0.N = Vr1 m c (Pipeline.arrRef spec0 w) :=
  (W1_arr m c w).symm
theorem hrest0 (c : Dev nD) : ∀ b, b ∉ Finset.univ.image (Pipeline.arrRef spec0) → Vr1 m c b = Vr0 m c b :=
  fun b hb => W1_of_ne m c b fun w e => hb (Finset.mem_image.mpr ⟨w, Finset.mem_univ _, e⟩)

/-- After the reshape of the bias. -/
abbrev W2 : Dev nD → Valuation τ sig (Elt F) := fun c => StableHlo.after hostOps1 (W1 m c)
abbrev Vr2 : (c : Dev nD) → (b : Ref sig .tc) → Buf (Elt F) ((c : Thread nD τ).loc b) := fun c b => W2 m c b
/-- After the layer pipeline: its output array at what its write-backs leave, every other buffer as found. -/
def W3 (c : Dev nD) : Valuation τ sig (Elt F) :=
  Function.update (W2 m c) (Proc.devRef .tc main_v2) ((dat1 (Vr2 m) c).arrAt 6 cfg1.N)
theorem W3_out (c : Dev nD) : W3 m c (Proc.devRef .tc main_v2) = (dat1 (Vr2 m) c).arrAt 6 cfg1.N := by
  unfold W3; exact Function.update_self ..
theorem W3_of_ne (c : Dev nD) (b : Ref sig .tc) (hb : b ≠ main_v2) :
    W3 m c (Proc.devRef .tc b) = W2 m c (Proc.devRef .tc b) := by
  unfold W3; exact Function.update_of_ne (StableHlo.devRef_ne_of_ne hb) ..
abbrev Vr3 : (c : Dev nD) → (b : Ref sig .tc) → Buf (Elt F) ((c : Thread nD τ).loc b) := fun c b => W3 m c b

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (Vr0 m) c
  | ⟨1, _⟩ => fun c => dat1 (Vr2 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m c) ∗ ∃ r, prngReg c r)

/-! ## The support pipeline as a segment -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (Vr0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vr0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vr0 m c) (Vr1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The adjacency array's share dealt among its four windows -/

/-- A buffer held whole at the full share is the same buffer held four times at a quarter. -/
theorem quarters (ℓ : Loc nD τ sig) (x : Buf (Elt F) ℓ) :
    (ℓ ↦{fullShare} x : sProp 𝕄) ⊣⊢ iprop((ℓ ↦{fullShare.left.left} x) ∗ (ℓ ↦{fullShare.left.right} x)
      ∗ (ℓ ↦{fullShare.right.left} x) ∗ (ℓ ↦{fullShare.right.right} x)) :=
  pointsTo_quarters Finset.univ fullShare x

variable (V : (c : Dev nD) → (b : Ref sig .tc) → Buf (Elt F) ((c : Thread nD τ).loc b))

/-- The layer pipeline's arrays, window by window: the adjacency array four times at a quarter, the support matrix,
    the bias row and the output array at the full share. -/
theorem arrays1_eq (c : Dev nD) (Fn : (w : Fin cfg1.W) → Buf (Elt F) ((cfg1.win w).arr.view.loc (c : Thread nD τ))) :
    ((dat1 V c).arrays Fn : sProp 𝕄)
      = iprop((((c : Thread nD τ).loc main_arg1) ↦{fullShare.left.left} Fn 0) ∗ (((c : Thread nD τ).loc main_arg1) ↦{fullShare.left.right} Fn 1)
        ∗ (((c : Thread nD τ).loc main_arg1) ↦{fullShare.right.left} Fn 2) ∗ (((c : Thread nD τ).loc main_arg1) ↦{fullShare.right.right} Fn 3)
        ∗ (((c : Thread nD τ).loc main_v0) ↦{fullShare} Fn 4) ∗ (((c : Thread nD τ).loc main_v1) ↦{fullShare} Fn 5)
        ∗ (((c : Thread nD τ).loc main_v2) ↦{fullShare} Fn 6)) := by
  unfold Dat.arrays
  rw [bigSep_W1, (arr_whole1 0).set_eq_univ, (arr_whole1 4).set_eq_univ, (arr_whole1 5).set_eq_univ, (arr_whole1 6).set_eq_univ]
  rfl

/-- The distinct buffers behind the layer pipeline's windows, one by one. -/
theorem arrBufs1_eq (c : Dev nD) (B : (b : Ref sig .tc) → Buf (Elt F) ((c : Thread nD τ).loc b)) :
    (Pipeline.arrBufs (Ix := Unit) (Name := ℕ) (U := UR sig nD τ) (Lvl := ℕ) spec1 c B : sProp 𝕄)
      = iprop((((c : Thread nD τ).loc main_arg1) ↦{fullShare} B main_arg1) ∗ (((c : Thread nD τ).loc main_v0) ↦{fullShare} B main_v0)
        ∗ (((c : Thread nD τ).loc main_v1) ↦{fullShare} B main_v1) ∗ (((c : Thread nD τ).loc main_v2) ↦{fullShare} B main_v2)) := by
  unfold Pipeline.arrBufs
  exact bigSep_eq_bigSepL_of_eq [main_arg1, main_v0, main_v1, main_v2] (by decide) (by decide) _

end Cert.Kernel.Fr

end
-- ==== Proof.K_Launch.lean ====
/-
  The layer pipeline as a segment of the run, and the run itself.

  At the layer pipeline's entry the adjacency array's buffer, held whole, is dealt in quarters to the four windows
  that read it; at its exit the quarters are put together again, so the array leaves the region exactly as it
  entered. The output array leaves at what the write-backs made of it, every other buffer as found. The run is
  then the three segments in order — support pipeline, reshape of the bias, layer pipeline — from the launch
  memory; its conclusion reads every unscoped buffer off the last boundary's contents.
-/
import proofs.«181569_g66666482369178_cont_sun_m_896_4_alg».proof.Proof.K_Run

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (Vr2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vr2 m c)
  hentry c := by
    rw [Pipeline.ownSems0_none]
    have hs : (unscopedBufs c (Vr2 m c) : sProp 𝕄) = iprop(Pipeline.arrBufs spec1 c (Vr2 m c) ∗ Pipeline.unscopedRest spec1 c (Vr2 m c)) :=
      Pipeline.unscopedBufs_split₀ (Ix := Unit) (Name := ℕ) (U := UR sig nD τ) (Lvl := ℕ) (cfgs) 1 winFacts₀1.arr_unscoped c (Vr2 m c)
    rw [Pipeline.unscopedBufs_held, arrBufs1_eq] at hs
    rw [show (pdats m 1 c).arrays ((pdats m 1 c).arrAt · 0) = (dat1 (Vr2 m) c).arrays (fun w => Vr2 m c (Pipeline.arrRef spec1 w)) from rfl, arrays1_eq]
    iintro ⟨⟨Hub, Hp, HO⟩, -, -⟩
    ihave H := (Entails.of_eq hs) $$ Hub
    icases H with ⟨⟨Ha1, Hv0, Hv1, Hv2⟩, Hrest⟩
    ihave Hq := (quarters _ _).1 $$ Ha1
    icases Hq with ⟨Hq0, Hq1, Hq2, Hq3⟩
    imodintro
    isplitl [Hq0 Hq1 Hq2 Hq3 Hv0 Hv1 Hv2]
    · isplitl [Hq0]; · iexact Hq0
      isplitl [Hq1]; · iexact Hq1
      isplitl [Hq2]; · iexact Hq2
      isplitl [Hq3]; · iexact Hq3
      isplitl [Hv0]; · iexact Hv0
      isplitl [Hv1]; · iexact Hv1
      iexact Hv2
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hs : (unscopedBufs c (Vr3 m c) : sProp 𝕄) = iprop(Pipeline.arrBufs spec1 c (Vr3 m c) ∗ Pipeline.unscopedRest spec1 c (Vr3 m c)) :=
      Pipeline.unscopedBufs_split₀ (Ix := Unit) (Name := ℕ) (U := UR sig nD τ) (Lvl := ℕ) (cfgs) 1 winFacts₀1.arr_unscoped c (Vr3 m c)
    rw [Pipeline.unscopedBufs_held, arrBufs1_eq, unscopedRest1_eq] at hs
    rw [show Vr3 m c main_arg1 = Vr2 m c main_arg1 from W3_of_ne m c main_arg1 (by decide),
      show Vr3 m c main_v0 = Vr2 m c main_v0 from W3_of_ne m c main_v0 (by decide),
      show Vr3 m c main_v1 = Vr2 m c main_v1 from W3_of_ne m c main_v1 (by decide),
      show Vr3 m c main_arg0 = Vr2 m c main_arg0 from W3_of_ne m c main_arg0 (by decide),
      show Vr3 m c main_arg2 = Vr2 m c main_arg2 from W3_of_ne m c main_arg2 (by decide),
      show Vr3 m c main_arg3 = Vr2 m c main_arg3 from W3_of_ne m c main_arg3 (by decide),
      show Vr3 m c main_v2 = (dat1 (Vr2 m) c).arrAt 6 cfg1.N from W3_out m c] at hs
    rw [show (pdats m 1 c).arrays ((pdats m 1 c).arrAt · (Pipeline.pin (pcfgs (F := F)) adm 1).N)
        = (dat1 (Vr2 m) c).arrays (fun w => (dat1 (Vr2 m) c).arrAt w cfg1.N) from rfl, arrays1_eq,
      (dat1 (Vr2 m) c).arrAt_in 0 rfl, (dat1 (Vr2 m) c).arrAt_in 1 rfl, (dat1 (Vr2 m) c).arrAt_in 2 rfl, (dat1 (Vr2 m) c).arrAt_in 3 rfl,
      (dat1 (Vr2 m) c).arrAt_in 4 rfl, (dat1 (Vr2 m) c).arrAt_in 5 rfl, unscopedRest1_eq]
    iintro ⟨⟨Hq0, Hq1, Hq2, Hq3, Hv0, Hv1, Hv2⟩, HO, HY, ⟨Ha0, Ha2, Ha3⟩⟩
    imodintro
    ihave Hfull := (quarters ((c : Thread nD τ).loc main_arg1) (Vr2 m c main_arg1)).2 $$ [Hq0 Hq1 Hq2 Hq3]
    · isplitl [Hq0]; · iexact Hq0
      isplitl [Hq1]; · iexact Hq1
      isplitl [Hq2]; · iexact Hq2
      iexact Hq3
    isplitl [Hfull Hv0 Hv1 Hv2 Ha0 Ha2 Ha3 HY]
    · isplitl [Hfull Hv0 Hv1 Hv2 Ha0 Ha2 Ha3]
      · iapply (Entails.of_eq hs.symm)
        isplitl [Hfull Hv0 Hv1 Hv2]
        · isplitl [Hfull]; · iexact Hfull
          isplitl [Hv0]; · iexact Hv0
          isplitl [Hv1]; · iexact Hv1
          iexact Hv2
        isplitl [Ha0]; · iexact Ha0
        isplitl [Ha2]; · iexact Ha2
        iexact Ha3
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .region (reg0 m),
    .host (hseg hostOps1 hostOps1_sub hostOps1_fresh' (W1 m)),
    .region (reg1 m) ]

theorem main_run (c : Dev nD) : main (F := F) c = Pipeline.Seg.run (segs m) := (main_chain c).trans (by chain_rfl)

set_option backward.isDefEq.respectTransparency.types false in
/-- THE RUN: from any memory with zero counters every weakly fair execution of the program terminates, nothing
    faulting, and every unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

end Cert.Kernel.Fr

end
-- ==== Proof.K_Frame.lean ====
/-
  The arguments end as launched.

  No pipeline and no host operation writes an argument: X and W are read by the support pipeline through input
  windows, which leave their arrays as found; A and b are bypassed by it; the reshape writes only the bias row's
  copy; the layer pipeline writes only its output array. So the last boundary's contents at each argument's buffer
  walk back to the launch memory, and the run gives the frame.
-/
import proofs.«181569_g66666482369178_cont_sun_m_896_4_alg».proof.Proof.K_Launch

set_option maxRecDepth 16384

noncomputable section

namespace Cert.Kernel.Fr

open Cert.Kernel Cert.Kernel.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ) (ρ : Dev nD → PrngReg)

/-- The reshape writes the bias row's copy and nothing else. -/
theorem W2_of_ne (c : Dev nD) (b : Ref sig .tc) (hb : b ≠ main_v1) : W2 m c (Proc.devRef .tc b) = W1 m c (Proc.devRef .tc b) := by
  show StableHlo.after [StableHlo.reshape main_arg3 main_v1 rfl shapeCasts_S64_S1x64] (W1 m c) (Proc.devRef .tc b) = _
  simp only [StableHlo.after_cons, StableHlo.after_nil]
  exact StableHlo.reshape_result_ne _ _ _ _ _ _ (W1 m c) hb

theorem W3_main_arg0 (c : Dev nD) : W3 m c (Proc.devRef .tc main_arg0) = m ((c : Thread nD τ).loc main_arg0) :=
  (W3_of_ne m c main_arg0 (by decide)).trans <| (W2_of_ne m c main_arg0 (by decide)).trans <|
    (W1_arr m c 0).trans (((dat0 (Vr0 m) c).arrAt_in 0 rfl _).trans (A_eq0 (Vr0 m) c 0))
theorem W3_main_arg1 (c : Dev nD) : W3 m c (Proc.devRef .tc main_arg1) = m ((c : Thread nD τ).loc main_arg1) :=
  (W3_of_ne m c main_arg1 (by decide)).trans <| (W2_of_ne m c main_arg1 (by decide)).trans <| W1_of_ne m c main_arg1 (by decide)
theorem W3_main_arg2 (c : Dev nD) : W3 m c (Proc.devRef .tc main_arg2) = m ((c : Thread nD τ).loc main_arg2) :=
  (W3_of_ne m c main_arg2 (by decide)).trans <| (W2_of_ne m c main_arg2 (by decide)).trans <|
    (W1_arr m c 1).trans (((dat0 (Vr0 m) c).arrAt_in 1 rfl _).trans (A_eq0 (Vr0 m) c 1))
theorem W3_main_arg3 (c : Dev nD) : W3 m c (Proc.devRef .tc main_arg3) = m ((c : Thread nD τ).loc main_arg3) :=
  (W3_of_ne m c main_arg3 (by decide)).trans <| (W2_of_ne m c main_arg3 (by decide)).trans <| W1_of_ne m c main_arg3 (by decide)

/-- THE FRAME: every weakly fair execution terminates, nothing faulting, and the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
      ⟨(h c _ (mem_uc main_arg0 (by decide))).trans (W3_main_arg0 m c),
       (h c _ (mem_uc main_arg1 (by decide))).trans (W3_main_arg1 m c),
       (h c _ (mem_uc main_arg2 (by decide))).trans (W3_main_arg2 m c),
       (h c _ (mem_uc main_arg3 (by decide))).trans (W3_main_arg3 m c)⟩)
    (run_all m ρ)

end Cert.Kernel.Fr

end
-- ==== Proof.KI_Region0.lean ====
/-
  Region 0 of the layer: the support matrix, X·W, computed in blocks of 2048 rows.

  Each grid point t reads rows 2048·t … 2048·t+2047 of X and the whole of W, multiplies them on the matrix unit
  into a zero accumulator, and stores the 2048×64 product over its output block. This module states what the
  body leaves in the output block as a function of the two input blocks, proves the body's triple, and packs
  the proof data of the pipeline: inputs stay as they are, the output block holds the product.
-/
import proofs.«181569_g66666482369178_cont_sun_m_896_4_alg».proof.Proof.Gen.KernelIdeal.Launch
import proofs.«181569_g66666482369178_cont_sun_m_896_4_alg».proof.Proof.Gen.KernelIdeal.Skeleton
import proofs.«181569_g66666482369178_cont_sun_m_896_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows of X: the staging buffer holds the block of the point, fetched at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights: fetched once, the block index never moves, so the buffer holds W at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S2048x64 := Rect.unit (s := S2048x64) ![0, 0] S2048x64.size inb_S2048x64_S2048x64_0_0
abbrev r0_1 : Rect S64x64 := Rect.unit (s := S64x64) ![0, 0] S64x64.size inb_S64x64_S64x64_0_0

/-- The output block after the body: one store of the product of the two input blocks over the whole block. -/
def out0_2 (x0 : Vec F S2048x64 .f32) (x1 : Vec F S64x64 .f32) : Vec F S2048x64 .f32 :=
  View.canon [⟨r0_0, k0_pay1 (View.ld x0 r0_0) (View.ld x1 r0_1)⟩]

/-- The one store covers the block. -/
theorem cover0_2 (p0 : Vec F S2048x64 .f32) (y : S2048x64.Idx) :
    ∃ pc ∈ ([⟨r0_0, p0⟩] : List (View.Piece (Elt F) S2048x64 .f32)), y ∈ pc.1.set :=
  View.cover_of_tiled [⟨r0_0, p0⟩] S2048x64.size (by rfl) y

set_option maxHeartbeats 1000000 in
/-- The body on whole staging buffers: the inputs are read and kept, the output ends at the product. -/
theorem sound_kernel0 (c : Dev nD) (E : Set ℕ) (i : grid0.Coords) (arg1 : Memref sig .tc .vmem S2048x64 .f32) (harg1 : arg1.IsWhole)
    (arg2 : Memref sig .tc .vmem S64x64 .f32) (harg2 : arg2.IsWhole) (arg3 : Memref sig .tc .vmem S2048x64 .f32) (harg3 : arg3.IsWhole)
    (x0 : Vec F S2048x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__support_body i arg1 harg1 arg2 harg2 arg3 harg3) K := by
  simp only [cc0__support_body_eq_skeleton]; unfold cc0__support_body_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the support pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the support pipeline, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI_Region1.lean ====
/-
  Region 1 of the layer: out = bias + A·S, one band of 256 rows of the adjacency matrix A per grid point.

  The band is read through four windows on the SAME array A, one per column shard of 4096 columns; the support
  matrix S (all 16384×64 of it) and the bias row are fetched once and stay resident. The body adds to the bias
  row, one after the other, the four products of a shard of the band with the matching 4096 rows of S, and
  stores the 256×64 result over its output block. This module states what the body leaves in the output block as
  a function of the six input blocks, proves the body's triple, and packs the pipeline's proof data. The four
  windows on A each hold a quarter of the array's share.
-/
import proofs.«181569_g66666482369178_cont_sun_m_896_4_alg».proof.Proof.Gen.KernelIdeal.Launch
import proofs.«181569_g66666482369178_cont_sun_m_896_4_alg».proof.Proof.Gen.KernelIdeal.Skeleton
import proofs.«181569_g66666482369178_cont_sun_m_896_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's staging buffer holds its block at every point, fetched there or not: an unfetched window's
    block index has not moved since the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

abbrev r1_a : Rect S256x4096 := Rect.unit (s := S256x4096) ![0, 0] S256x4096.size inb_S256x4096_S256x4096_0_0
abbrev r1_b : Rect S1x64 := Rect.unit (s := S1x64) ![0, 0] S1x64.size inb_S1x64_S1x64_0_0
abbrev r1_s0 : Rect S16384x64 := Rect.unit (s := S16384x64) ![0, 0] S4096x64.size inb_S16384x64_S4096x64_0_0
abbrev r1_s1 : Rect S16384x64 := Rect.unit (s := S16384x64) ![4096, 0] S4096x64.size inb_S16384x64_S4096x64_4096_0
abbrev r1_s2 : Rect S16384x64 := Rect.unit (s := S16384x64) ![8192, 0] S4096x64.size inb_S16384x64_S4096x64_8192_0
abbrev r1_s3 : Rect S16384x64 := Rect.unit (s := S16384x64) ![12288, 0] S4096x64.size inb_S16384x64_S4096x64_12288_0
abbrev r1_o : Rect S256x64 := Rect.unit (s := S256x64) ![0, 0] S256x64.size inb_S256x64_S256x64_0_0

/-- The output block after the body: one store, over the whole block, of the bias row plus the four shard products. -/
def out1_6 (x0 x1 x2 x3 : Vec F S256x4096 .f32) (x4 : Vec F S16384x64 .f32) (x5 : Vec F S1x64 .f32) : Vec F S256x64 .f32 :=
  View.canon [⟨r1_o, k1_pay1 (View.ld x5 r1_b) (View.ld x0 r1_a) (View.ld x4 r1_s0) (View.ld x1 r1_a) (View.ld x4 r1_s1)
    (View.ld x2 r1_a) (View.ld x4 r1_s2) (View.ld x3 r1_a) (View.ld x4 r1_s3)⟩]

/-- The one store covers the block. -/
theorem cover1_6 (p0 : Vec F S256x64 .f32) (y : S256x64.Idx) :
    ∃ pc ∈ ([⟨r1_o, p0⟩] : List (View.Piece (Elt F) S256x64 .f32)), y ∈ pc.1.set :=
  View.cover_of_tiled [⟨r1_o, p0⟩] S256x64.size (by rfl) y

set_option maxHeartbeats 4000000 in
/-- The body on whole staging buffers: the six inputs are read and kept, the output ends at `out1_6` of them. -/
theorem sound_kernel1 (c : Dev nD) (E : Set ℕ) (i : grid1.Coords)
    (arg1 : Memref sig .tc .vmem S256x4096 .f32) (harg1 : arg1.IsWhole) (arg2 : Memref sig .tc .vmem S256x4096 .f32) (harg2 : arg2.IsWhole)
    (arg3 : Memref sig .tc .vmem S256x4096 .f32) (harg3 : arg3.IsWhole) (arg4 : Memref sig .tc .vmem S256x4096 .f32) (harg4 : arg4.IsWhole)
    (arg5 : Memref sig .tc .vmem S16384x64 .f32) (harg5 : arg5.IsWhole) (arg6 : Memref sig .tc .vmem S1x64 .f32) (harg6 : arg6.IsWhole)
    (arg7 : Memref sig .tc .vmem S256x64 .f32) (harg7 : arg7.IsWhole)
    (x0 x1 x2 x3 : Vec F S256x4096 .f32) (x4 : Vec F S16384x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E (cc1__gcn_body i arg1 harg1 arg2 harg2 arg3 harg3 arg4 harg4 arg5 harg5 arg6 harg6 arg7 harg7) K := by
  simp only [cc1__gcn_body_eq_skeleton]; unfold cc1__gcn_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0
  subst hf1
  subst hf2
  subst hf3
  subst hf4
  subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-- The share of A each of its four windows holds: a quarter. -/
def q1 : Fin cfg1.W → PosShare TreeShare
  | ⟨0, _⟩ => fullShare.left.left
  | ⟨1, _⟩ => fullShare.left.right
  | ⟨2, _⟩ => fullShare.right.left
  | ⟨3, _⟩ => fullShare.right.right
  | _ => fullShare

/-- The proof data of the layer's pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q := q1
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t
    = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the layer's pipeline, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI_Run.lean ====
/-
  The whole run of the layer's program: support pipeline, the bias row reshaped on the host, layer pipeline.

  The buffer contents at each boundary are folded from the launch memory: the support pipeline leaves its output
  array at what its write-backs make of it and every other buffer as found; the reshape writes the bias row; the
  layer pipeline leaves its output array at what its write-backs make of it. The adjacency array is handed to the
  layer pipeline through four windows: its full share is dealt to them in quarters at the region's entry and put
  together again at its exit. The run's conclusion: every weakly fair execution terminates, and every unscoped
  buffer ends at the last boundary's contents.
-/
import proofs.«181569_g66666482369178_cont_sun_m_896_4_alg».proof.Proof.KI_Region0
import proofs.«181569_g66666482369178_cont_sun_m_896_4_alg».proof.Proof.KI_Region1
import proofs.«181569_g66666482369178_cont_sun_m_896_4_alg».proof.Proof.LibShareQuarters

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => m (c, b)
abbrev Vr0 : (c : Dev nD) → (b : Ref sig .tc) → Buf (Elt F) ((c : Thread nD τ).loc b) := fun c b => W0 m c b
/-- After the support pipeline: its arrays at what it leaves, every other buffer as found. -/
def W1 (c : Dev nD) : Valuation τ sig (Elt F) :=
  Pipeline.withArrays spec0 c (W0 m c) fun w => (dat0 (Vr0 m) c).arrAt w cfg0.N
theorem W1_arr (c : Dev nD) (w : Fin cfg0.W) :
    W1 m c (Proc.devRef .tc (Pipeline.arrRef spec0 w)) = (dat0 (Vr0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev Vr1 : (c : Dev nD) → (b : Ref sig .tc) → Buf (Elt F) ((c : Thread nD τ).loc b) := fun c b => W1 m c b
theorem hF0 (c : Dev nD) (w : Fin cfg0.W) : (dat0 (Vr0 m) c).arrAt w cfg0.N = Vr1 m c (Pipeline.arrRef spec0 w) :=
  (W1_arr m c w).symm
theorem hrest0 (c : Dev nD) : ∀ b, b ∉ Finset.univ.image (Pipeline.arrRef spec0) → Vr1 m c b = Vr0 m c b :=
  fun b hb => W1_of_ne m c b fun w e => hb (Finset.mem_image.mpr ⟨w, Finset.mem_univ _, e⟩)

/-- After the reshape of the bias. -/
abbrev W2 : Dev nD → Valuation τ sig (Elt F) := fun c => StableHlo.after hostOps1 (W1 m c)
abbrev Vr2 : (c : Dev nD) → (b : Ref sig .tc) → Buf (Elt F) ((c : Thread nD τ).loc b) := fun c b => W2 m c b
/-- After the layer pipeline: its output array at what its write-backs leave, every other buffer as found. -/
def W3 (c : Dev nD) : Valuation τ sig (Elt F) :=
  Function.update (W2 m c) (Proc.devRef .tc main_v2) ((dat1 (Vr2 m) c).arrAt 6 cfg1.N)
theorem W3_out (c : Dev nD) : W3 m c (Proc.devRef .tc main_v2) = (dat1 (Vr2 m) c).arrAt 6 cfg1.N := by
  unfold W3; exact Function.update_self ..
theorem W3_of_ne (c : Dev nD) (b : Ref sig .tc) (hb : b ≠ main_v2) :
    W3 m c (Proc.devRef .tc b) = W2 m c (Proc.devRef .tc b) := by
  unfold W3; exact Function.update_of_ne (StableHlo.devRef_ne_of_ne hb) ..
abbrev Vr3 : (c : Dev nD) → (b : Ref sig .tc) → Buf (Elt F) ((c : Thread nD τ).loc b) := fun c b => W3 m c b

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (Vr0 m) c
  | ⟨1, _⟩ => fun c => dat1 (Vr2 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m c) ∗ ∃ r, prngReg c r)

/-! ## The support pipeline as a segment -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (Vr0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vr0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vr0 m c) (Vr1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The adjacency array's share dealt among its four windows -/

/-- A buffer held whole at the full share is the same buffer held four times at a quarter. -/
theorem quarters (ℓ : Loc nD τ sig) (x : Buf (Elt F) ℓ) :
    (ℓ ↦{fullShare} x : sProp 𝕄) ⊣⊢ iprop((ℓ ↦{fullShare.left.left} x) ∗ (ℓ ↦{fullShare.left.right} x)
      ∗ (ℓ ↦{fullShare.right.left} x) ∗ (ℓ ↦{fullShare.right.right} x)) :=
  pointsTo_quarters Finset.univ fullShare x

variable (V : (c : Dev nD) → (b : Ref sig .tc) → Buf (Elt F) ((c : Thread nD τ).loc b))

/-- The layer pipeline's arrays, window by window: the adjacency array four times at a quarter, the support matrix,
    the bias row and the output array at the full share. -/
theorem arrays1_eq (c : Dev nD) (Fn : (w : Fin cfg1.W) → Buf (Elt F) ((cfg1.win w).arr.view.loc (c : Thread nD τ))) :
    ((dat1 V c).arrays Fn : sProp 𝕄)
      = iprop((((c : Thread nD τ).loc main_arg1) ↦{fullShare.left.left} Fn 0) ∗ (((c : Thread nD τ).loc main_arg1) ↦{fullShare.left.right} Fn 1)
        ∗ (((c : Thread nD τ).loc main_arg1) ↦{fullShare.right.left} Fn 2) ∗ (((c : Thread nD τ).loc main_arg1) ↦{fullShare.right.right} Fn 3)
        ∗ (((c : Thread nD τ).loc main_v0) ↦{fullShare} Fn 4) ∗ (((c : Thread nD τ).loc main_v1) ↦{fullShare} Fn 5)
        ∗ (((c : Thread nD τ).loc main_v2) ↦{fullShare} Fn 6)) := by
  unfold Dat.arrays
  rw [bigSep_W1, (arr_whole1 0).set_eq_univ, (arr_whole1 4).set_eq_univ, (arr_whole1 5).set_eq_univ, (arr_whole1 6).set_eq_univ]
  rfl

/-- The distinct buffers behind the layer pipeline's windows, one by one. -/
theorem arrBufs1_eq (c : Dev nD) (B : (b : Ref sig .tc) → Buf (Elt F) ((c : Thread nD τ).loc b)) :
    (Pipeline.arrBufs (Ix := Unit) (Name := ℕ) (U := UR sig nD τ) (Lvl := ℕ) spec1 c B : sProp 𝕄)
      = iprop((((c : Thread nD τ).loc main_arg1) ↦{fullShare} B main_arg1) ∗ (((c : Thread nD τ).loc main_v0) ↦{fullShare} B main_v0)
        ∗ (((c : Thread nD τ).loc main_v1) ↦{fullShare} B main_v1) ∗ (((c : Thread nD τ).loc main_v2) ↦{fullShare} B main_v2)) := by
  unfold Pipeline.arrBufs
  exact bigSep_eq_bigSepL_of_eq [main_arg1, main_v0, main_v1, main_v2] (by decide) (by decide) _

end Cert.KernelIdeal.Fr

end
-- ==== Proof.KI_Launch.lean ====
/-
  The layer pipeline as a segment of the run, and the run itself.

  At the layer pipeline's entry the adjacency array's buffer, held whole, is dealt in quarters to the four windows
  that read it; at its exit the quarters are put together again, so the array leaves the region exactly as it
  entered. The output array leaves at what the write-backs made of it, every other buffer as found. The run is
  then the three segments in order — support pipeline, reshape of the bias, layer pipeline — from the launch
  memory; its conclusion reads every unscoped buffer off the last boundary's contents.
-/
import proofs.«181569_g66666482369178_cont_sun_m_896_4_alg».proof.Proof.KI_Run

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (Vr2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vr2 m c)
  hentry c := by
    rw [Pipeline.ownSems0_none]
    have hs : (unscopedBufs c (Vr2 m c) : sProp 𝕄) = iprop(Pipeline.arrBufs spec1 c (Vr2 m c) ∗ Pipeline.unscopedRest spec1 c (Vr2 m c)) :=
      Pipeline.unscopedBufs_split₀ (Ix := Unit) (Name := ℕ) (U := UR sig nD τ) (Lvl := ℕ) (cfgs) 1 winFacts₀1.arr_unscoped c (Vr2 m c)
    rw [Pipeline.unscopedBufs_held, arrBufs1_eq] at hs
    rw [show (pdats m 1 c).arrays ((pdats m 1 c).arrAt · 0) = (dat1 (Vr2 m) c).arrays (fun w => Vr2 m c (Pipeline.arrRef spec1 w)) from rfl, arrays1_eq]
    iintro ⟨⟨Hub, Hp, HO⟩, -, -⟩
    ihave H := (Entails.of_eq hs) $$ Hub
    icases H with ⟨⟨Ha1, Hv0, Hv1, Hv2⟩, Hrest⟩
    ihave Hq := (quarters _ _).1 $$ Ha1
    icases Hq with ⟨Hq0, Hq1, Hq2, Hq3⟩
    imodintro
    isplitl [Hq0 Hq1 Hq2 Hq3 Hv0 Hv1 Hv2]
    · isplitl [Hq0]; · iexact Hq0
      isplitl [Hq1]; · iexact Hq1
      isplitl [Hq2]; · iexact Hq2
      isplitl [Hq3]; · iexact Hq3
      isplitl [Hv0]; · iexact Hv0
      isplitl [Hv1]; · iexact Hv1
      iexact Hv2
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hs : (unscopedBufs c (Vr3 m c) : sProp 𝕄) = iprop(Pipeline.arrBufs spec1 c (Vr3 m c) ∗ Pipeline.unscopedRest spec1 c (Vr3 m c)) :=
      Pipeline.unscopedBufs_split₀ (Ix := Unit) (Name := ℕ) (U := UR sig nD τ) (Lvl := ℕ) (cfgs) 1 winFacts₀1.arr_unscoped c (Vr3 m c)
    rw [Pipeline.unscopedBufs_held, arrBufs1_eq, unscopedRest1_eq] at hs
    rw [show Vr3 m c main_arg1 = Vr2 m c main_arg1 from W3_of_ne m c main_arg1 (by decide),
      show Vr3 m c main_v0 = Vr2 m c main_v0 from W3_of_ne m c main_v0 (by decide),
      show Vr3 m c main_v1 = Vr2 m c main_v1 from W3_of_ne m c main_v1 (by decide),
      show Vr3 m c main_arg0 = Vr2 m c main_arg0 from W3_of_ne m c main_arg0 (by decide),
      show Vr3 m c main_arg2 = Vr2 m c main_arg2 from W3_of_ne m c main_arg2 (by decide),
      show Vr3 m c main_arg3 = Vr2 m c main_arg3 from W3_of_ne m c main_arg3 (by decide),
      show Vr3 m c main_v2 = (dat1 (Vr2 m) c).arrAt 6 cfg1.N from W3_out m c] at hs
    rw [show (pdats m 1 c).arrays ((pdats m 1 c).arrAt · (Pipeline.pin (pcfgs (F := F)) adm 1).N)
        = (dat1 (Vr2 m) c).arrays (fun w => (dat1 (Vr2 m) c).arrAt w cfg1.N) from rfl, arrays1_eq,
      (dat1 (Vr2 m) c).arrAt_in 0 rfl, (dat1 (Vr2 m) c).arrAt_in 1 rfl, (dat1 (Vr2 m) c).arrAt_in 2 rfl, (dat1 (Vr2 m) c).arrAt_in 3 rfl,
      (dat1 (Vr2 m) c).arrAt_in 4 rfl, (dat1 (Vr2 m) c).arrAt_in 5 rfl, unscopedRest1_eq]
    iintro ⟨⟨Hq0, Hq1, Hq2, Hq3, Hv0, Hv1, Hv2⟩, HO, HY, ⟨Ha0, Ha2, Ha3⟩⟩
    imodintro
    ihave Hfull := (quarters ((c : Thread nD τ).loc main_arg1) (Vr2 m c main_arg1)).2 $$ [Hq0 Hq1 Hq2 Hq3]
    · isplitl [Hq0]; · iexact Hq0
      isplitl [Hq1]; · iexact Hq1
      isplitl [Hq2]; · iexact Hq2
      iexact Hq3
    isplitl [Hfull Hv0 Hv1 Hv2 Ha0 Ha2 Ha3 HY]
    · isplitl [Hfull Hv0 Hv1 Hv2 Ha0 Ha2 Ha3]
      · iapply (Entails.of_eq hs.symm)
        isplitl [Hfull Hv0 Hv1 Hv2]
        · isplitl [Hfull]; · iexact Hfull
          isplitl [Hv0]; · iexact Hv0
          isplitl [Hv1]; · iexact Hv1
          iexact Hv2
        isplitl [Ha0]; · iexact Ha0
        isplitl [Ha2]; · iexact Ha2
        iexact Ha3
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .region (reg0 m),
    .host (hseg hostOps1 hostOps1_sub hostOps1_fresh' (W1 m)),
    .region (reg1 m) ]

theorem main_run (c : Dev nD) : main (F := F) c = Pipeline.Seg.run (segs m) := (main_chain c).trans (by chain_rfl)

set_option backward.isDefEq.respectTransparency.types false in
/-- THE RUN: from any memory with zero counters every weakly fair execution of the program terminates, nothing
    faulting, and every unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

end Cert.KernelIdeal.Fr

end
-- ==== Proof.KI_Frame.lean ====
/-
  The arguments end as launched.

  No pipeline and no host operation writes an argument: X and W are read by the support pipeline through input
  windows, which leave their arrays as found; A and b are bypassed by it; the reshape writes only the bias row's
  copy; the layer pipeline writes only its output array. So the last boundary's contents at each argument's buffer
  walk back to the launch memory, and the run gives the frame.
-/
import proofs.«181569_g66666482369178_cont_sun_m_896_4_alg».proof.Proof.KI_Launch

set_option maxRecDepth 16384

noncomputable section

namespace Cert.KernelIdeal.Fr

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ) (ρ : Dev nD → PrngReg)

/-- The reshape writes the bias row's copy and nothing else. -/
theorem W2_of_ne (c : Dev nD) (b : Ref sig .tc) (hb : b ≠ main_v1) : W2 m c (Proc.devRef .tc b) = W1 m c (Proc.devRef .tc b) := by
  show StableHlo.after [StableHlo.reshape main_arg3 main_v1 rfl shapeCasts_S64_S1x64] (W1 m c) (Proc.devRef .tc b) = _
  simp only [StableHlo.after_cons, StableHlo.after_nil]
  exact StableHlo.reshape_result_ne _ _ _ _ _ _ (W1 m c) hb

theorem W3_main_arg0 (c : Dev nD) : W3 m c (Proc.devRef .tc main_arg0) = m ((c : Thread nD τ).loc main_arg0) :=
  (W3_of_ne m c main_arg0 (by decide)).trans <| (W2_of_ne m c main_arg0 (by decide)).trans <|
    (W1_arr m c 0).trans (((dat0 (Vr0 m) c).arrAt_in 0 rfl _).trans (A_eq0 (Vr0 m) c 0))
theorem W3_main_arg1 (c : Dev nD) : W3 m c (Proc.devRef .tc main_arg1) = m ((c : Thread nD τ).loc main_arg1) :=
  (W3_of_ne m c main_arg1 (by decide)).trans <| (W2_of_ne m c main_arg1 (by decide)).trans <| W1_of_ne m c main_arg1 (by decide)
theorem W3_main_arg2 (c : Dev nD) : W3 m c (Proc.devRef .tc main_arg2) = m ((c : Thread nD τ).loc main_arg2) :=
  (W3_of_ne m c main_arg2 (by decide)).trans <| (W2_of_ne m c main_arg2 (by decide)).trans <|
    (W1_arr m c 1).trans (((dat0 (Vr0 m) c).arrAt_in 1 rfl _).trans (A_eq0 (Vr0 m) c 1))
theorem W3_main_arg3 (c : Dev nD) : W3 m c (Proc.devRef .tc main_arg3) = m ((c : Thread nD τ).loc main_arg3) :=
  (W3_of_ne m c main_arg3 (by decide)).trans <| (W2_of_ne m c main_arg3 (by decide)).trans <| W1_of_ne m c main_arg3 (by decide)

/-- THE FRAME: every weakly fair execution terminates, nothing faulting, and the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
      ⟨(h c _ (mem_uc main_arg0 (by decide))).trans (W3_main_arg0 m c),
       (h c _ (mem_uc main_arg1 (by decide))).trans (W3_main_arg1 m c),
       (h c _ (mem_uc main_arg2 (by decide))).trans (W3_main_arg2 m c),
       (h c _ (mem_uc main_arg3 (by decide))).trans (W3_main_arg3 m c)⟩)
    (run_all m ρ)

end Cert.KernelIdeal.Fr

end
-- ==== Proof.Spec.lean ====
import Idealize.ShloMosaic.Lib.ValueIdx
import Idealize.ShloMosaic.PureOps.Ideal.Laws
import Mathlib.Algebra.BigOperators.Fin
import Mathlib.Tactic.Abel

/-!
# The graph-convolution layer, as a function of its four arrays

For a feature matrix `X` (16384 × 64), an adjacency matrix `A` (16384 × 16384), a weight matrix `W` (64 × 64)
and a bias row `b` (64), the layer is `out[i, q] = (∑ k, A[i, k] * S[k, q]) + b[q]` with the support
`S[k, q] = ∑ d, X[k, d] * W[d, q]`. Everything is stated over the extended reals, where addition is
commutative and associative without any finiteness hypothesis; the only law needed between the two programs
is that a sum over 16384 indices, cut into four consecutive runs of 4096 and added one run at a time onto a
starting value, is the whole sum plus that value (`split4`).
-/

noncomputable section

open scoped BigOperators

namespace Cert.Gcn

open Idealize.ShloMosaic Idealize.ShloMosaic.ValueIdx

/-- The support `S = X · W` at row `k`, column `q`: `∑ d, X[k, d] * W[d, q]`. -/
def support (X : (⟨2, ![16384, 64]⟩ : Shape).Idx → EReal) (W : (⟨2, ![64, 64]⟩ : Shape).Idx → EReal)
    (k : Fin 16384) (q : Fin 64) : EReal :=
  ∑ d : Fin 64, X (ix2 k d) * W (ix2 d q)

/-- The layer's result: `out[i, q] = (∑ k, A[i, k] * S[k, q]) + b[q]`. -/
def out (X : (⟨2, ![16384, 64]⟩ : Shape).Idx → EReal) (A : (⟨2, ![16384, 16384]⟩ : Shape).Idx → EReal)
    (W : (⟨2, ![64, 64]⟩ : Shape).Idx → EReal) (b : (⟨1, ![64]⟩ : Shape).Idx → EReal) :
    (⟨2, ![16384, 64]⟩ : Shape).Idx → EReal :=
  fun i => (∑ k : Fin 16384, A (ix2 (i 0) k) * support X W k (i 1)) + b (ix1 (i 1))

/-- The result at the index with coordinates `(p, q)`. -/
theorem out_ix2 (X : (⟨2, ![16384, 64]⟩ : Shape).Idx → EReal) (A : (⟨2, ![16384, 16384]⟩ : Shape).Idx → EReal)
    (W : (⟨2, ![64, 64]⟩ : Shape).Idx → EReal) (b : (⟨1, ![64]⟩ : Shape).Idx → EReal) (p : Fin 16384) (q : Fin 64) :
    out X A W b (ix2 p q) = (∑ k : Fin 16384, A (ix2 p k) * support X W k q) + b (ix1 q) := rfl

/-- A sum over `N = a + b` consecutive indices is the sum over the first `a` plus the sum over the last `b`. -/
theorem sum_split {M : Type*} [AddCommMonoid M] (a b N : ℕ) (h : a + b = N) (f : Fin N → M) :
    ∑ k : Fin N, f k = (∑ k : Fin a, f ⟨k.val, by omega⟩) + ∑ k : Fin b, f ⟨a + k.val, by omega⟩ := by
  subst h
  rw [Fin.sum_univ_add]
  rfl

/-- Four consecutive runs of 4096 terms added one after the other onto a starting value `c` make the whole sum
    over 16384 terms plus `c`: only commutativity and associativity of the addition. -/
theorem split4_gen {M : Type*} [AddCommMonoid M] (f : Fin 16384 → M) (c : M) :
    (((c + ∑ k : Fin 4096, f ⟨k.val, by omega⟩) + ∑ k : Fin 4096, f ⟨4096 + k.val, by omega⟩)
        + ∑ k : Fin 4096, f ⟨8192 + k.val, by omega⟩) + ∑ k : Fin 4096, f ⟨12288 + k.val, by omega⟩
      = (∑ k : Fin 16384, f k) + c := by
  have h1 := sum_split 12288 4096 16384 (by norm_num) f
  have h2 := sum_split 8192 4096 12288 (by norm_num) (fun k : Fin 12288 => f ⟨k.val, by omega⟩)
  have h3 := sum_split 4096 4096 8192 (by norm_num) (fun k : Fin 8192 => f ⟨k.val, by omega⟩)
  dsimp only at h2 h3
  rw [h1, h2, h3]
  abel

/-- The same over the extended reals. -/
theorem split4 (f : Fin 16384 → EReal) (c : EReal) :
    (((c + ∑ k : Fin 4096, f ⟨k.val, by omega⟩) + ∑ k : Fin 4096, f ⟨4096 + k.val, by omega⟩)
        + ∑ k : Fin 4096, f ⟨8192 + k.val, by omega⟩) + ∑ k : Fin 4096, f ⟨12288 + k.val, by omega⟩
      = (∑ k : Fin 16384, f k) + c :=
  split4_gen f c

end Cert.Gcn

end
-- ==== Proof.Payloads.lean ====
import proofs.«181569_g66666482369178_cont_sun_m_896_4_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

/-!
# The two kernel bodies' stored values, read at an index

The first body stores the product of its block of `X` (2048 × 64) with `W` (64 × 64); read at `(p, q)` that is
`∑ d, X[p, d] * W[d, q]`. The second body starts from the bias row broadcast over its 256 rows and adds, one
after the other, four products of a 256 × 4096 block of `A` with a 4096 × 64 block of the support; read at
`(p, q)` that is `(((b[0, q] + ∑ k, A₀[p, k] * S₀[k, q]) + ∑ k, A₁[p, k] * S₁[k, q]) + …) + …`. A matrix product
into the zero accumulator is the plain sum over the contraction position, re-indexed by the one coordinate of
that position; a shape cast of a shape to itself is the identity; a row broadcast reads the row.
-/

noncomputable section

open scoped BigOperators

namespace Cert.Gcn

open Idealize.ShloMosaic Idealize.ShloMosaic.ValueIdx Cert.KernelIdeal Cert.KernelIdeal.Gen

/-! ## The first body's product: [2048, 64] × [64, 64] -/

/-- The left operand's row coordinate at output index `j` is `j`'s row. -/
theorem mm0_lhs_0 (j : S2048x64.Idx) (c : dot_S2048x64_S64x64_S2048x64_1_0_0_1_n_n.contr.Idx) : (dot_S2048x64_S64x64_S2048x64_1_0_0_1_n_n.lhsIdx j c 0).val = (j 0).val := by
  unfold DotDims.lhsIdx
  rw [dif_neg (show ¬(0 : Fin S2048x64.rank) ∈ dot_S2048x64_S64x64_S2048x64_1_0_0_1_n_n.lhsBatch by decide), dif_pos (show (0 : Fin S2048x64.rank) ∈ dot_S2048x64_S64x64_S2048x64_1_0_0_1_n_n.lhsNonContracting by decide)]
  rfl
/-- The left operand's column coordinate is the contraction position. -/
theorem mm0_lhs_1 (j : S2048x64.Idx) (c : dot_S2048x64_S64x64_S2048x64_1_0_0_1_n_n.contr.Idx) : (dot_S2048x64_S64x64_S2048x64_1_0_0_1_n_n.lhsIdx j c 1).val = (c ⟨0, by decide⟩).val :=
  dot_S2048x64_S64x64_S2048x64_1_0_0_1_n_n.lhsIdx_val_of_single rfl j c
/-- The right operand's row coordinate is the contraction position. -/
theorem mm0_rhs_0 (j : S2048x64.Idx) (c : dot_S2048x64_S64x64_S2048x64_1_0_0_1_n_n.contr.Idx) : (dot_S2048x64_S64x64_S2048x64_1_0_0_1_n_n.rhsIdx j c 0).val = (c ⟨0, by decide⟩).val :=
  dot_S2048x64_S64x64_S2048x64_1_0_0_1_n_n.rhsIdx_val_of_single rfl j c
/-- The right operand's column coordinate at output index `j` is `j`'s column. -/
theorem mm0_rhs_1 (j : S2048x64.Idx) (c : dot_S2048x64_S64x64_S2048x64_1_0_0_1_n_n.contr.Idx) : (dot_S2048x64_S64x64_S2048x64_1_0_0_1_n_n.rhsIdx j c 1).val = (j 1).val := by
  unfold DotDims.rhsIdx
  rw [dif_neg (show ¬(1 : Fin S64x64.rank) ∈ dot_S2048x64_S64x64_S2048x64_1_0_0_1_n_n.rhsBatch by decide), dif_pos (show (1 : Fin S64x64.rank) ∈ dot_S2048x64_S64x64_S2048x64_1_0_0_1_n_n.rhsNonContracting by decide)]
  rfl

/-- A [2048, 64] × [64, 64] matrix product into the zero accumulator, read at `(p, q)`: `∑ k, a[p, k] * b[k, q]`. -/
theorem mm0_apply (a : FVec Ideal S2048x64 .f32) (b : FVec Ideal S64x64 .f32) (p : Fin 2048) (q : Fin 64) :
    matmul (F := Ideal) dot_S2048x64_S64x64_S2048x64_1_0_0_1_n_n none a b (constant (F := Ideal) S2048x64 .f32 0x00000000#32) (ix2 p q)
      = ∑ k : Fin 64, a (ix2 p k) * b (ix2 k q) := by
  refine (Ideal.matmul_constant_zero_apply dot_S2048x64_S64x64_S2048x64_1_0_0_1_n_n none a b (ix2 p q)).trans ?_
  rw [← Equiv.sum_comp (contrEquiv1 dot_S2048x64_S64x64_S2048x64_1_0_0_1_n_n 64 rfl rfl).symm]
  refine Finset.sum_congr rfl fun k _ => ?_
  have hk := contrEquiv1_symm_val dot_S2048x64_S64x64_S2048x64_1_0_0_1_n_n 64 rfl rfl k
  have el : dot_S2048x64_S64x64_S2048x64_1_0_0_1_n_n.lhsIdx (ix2 p q) ((contrEquiv1 dot_S2048x64_S64x64_S2048x64_1_0_0_1_n_n 64 rfl rfl).symm k) = ix2 p k := funext fun x => Fin.ext (by
    match x with
    | ⟨0, _⟩ => exact mm0_lhs_0 _ _
    | ⟨1, _⟩ => exact (mm0_lhs_1 _ _).trans hk)
  have er : dot_S2048x64_S64x64_S2048x64_1_0_0_1_n_n.rhsIdx (ix2 p q) ((contrEquiv1 dot_S2048x64_S64x64_S2048x64_1_0_0_1_n_n 64 rfl rfl).symm k) = ix2 k q := funext fun x => Fin.ext (by
    match x with
    | ⟨0, _⟩ => exact (mm0_rhs_0 _ _).trans hk
    | ⟨1, _⟩ => exact mm0_rhs_1 _ _)
  rw [el, er]

/-! ## The second body's products: [256, 4096] × [4096, 64] -/

/-- The left operand's row coordinate at output index `j` is `j`'s row. -/
theorem mm1_lhs_0 (j : S256x64.Idx) (c : dot_S256x4096_S4096x64_S256x64_1_0_0_1_n_n.contr.Idx) : (dot_S256x4096_S4096x64_S256x64_1_0_0_1_n_n.lhsIdx j c 0).val = (j 0).val := by
  unfold DotDims.lhsIdx
  rw [dif_neg (show ¬(0 : Fin S256x4096.rank) ∈ dot_S256x4096_S4096x64_S256x64_1_0_0_1_n_n.lhsBatch by decide), dif_pos (show (0 : Fin S256x4096.rank) ∈ dot_S256x4096_S4096x64_S256x64_1_0_0_1_n_n.lhsNonContracting by decide)]
  rfl
/-- The left operand's column coordinate is the contraction position. -/
theorem mm1_lhs_1 (j : S256x64.Idx) (c : dot_S256x4096_S4096x64_S256x64_1_0_0_1_n_n.contr.Idx) : (dot_S256x4096_S4096x64_S256x64_1_0_0_1_n_n.lhsIdx j c 1).val = (c ⟨0, by decide⟩).val :=
  dot_S256x4096_S4096x64_S256x64_1_0_0_1_n_n.lhsIdx_val_of_single rfl j c
/-- The right operand's row coordinate is the contraction position. -/
theorem mm1_rhs_0 (j : S256x64.Idx) (c : dot_S256x4096_S4096x64_S256x64_1_0_0_1_n_n.contr.Idx) : (dot_S256x4096_S4096x64_S256x64_1_0_0_1_n_n.rhsIdx j c 0).val = (c ⟨0, by decide⟩).val :=
  dot_S256x4096_S4096x64_S256x64_1_0_0_1_n_n.rhsIdx_val_of_single rfl j c
/-- The right operand's column coordinate at output index `j` is `j`'s column. -/
theorem mm1_rhs_1 (j : S256x64.Idx) (c : dot_S256x4096_S4096x64_S256x64_1_0_0_1_n_n.contr.Idx) : (dot_S256x4096_S4096x64_S256x64_1_0_0_1_n_n.rhsIdx j c 1).val = (j 1).val := by
  unfold DotDims.rhsIdx
  rw [dif_neg (show ¬(1 : Fin S4096x64.rank) ∈ dot_S256x4096_S4096x64_S256x64_1_0_0_1_n_n.rhsBatch by decide), dif_pos (show (1 : Fin S4096x64.rank) ∈ dot_S256x4096_S4096x64_S256x64_1_0_0_1_n_n.rhsNonContracting by decide)]
  rfl

/-- A [256, 4096] × [4096, 64] matrix product into the zero accumulator, read at `(p, q)`: `∑ k, a[p, k] * b[k, q]`. -/
theorem mm1_apply (a : FVec Ideal S256x4096 .f32) (b : FVec Ideal S4096x64 .f32) (p : Fin 256) (q : Fin 64) :
    matmul (F := Ideal) dot_S256x4096_S4096x64_S256x64_1_0_0_1_n_n none a b (constant (F := Ideal) S256x64 .f32 0x00000000#32) (ix2 p q)
      = ∑ k : Fin 4096, a (ix2 p k) * b (ix2 k q) := by
  refine (Ideal.matmul_constant_zero_apply dot_S256x4096_S4096x64_S256x64_1_0_0_1_n_n none a b (ix2 p q)).trans ?_
  rw [← Equiv.sum_comp (contrEquiv1 dot_S256x4096_S4096x64_S256x64_1_0_0_1_n_n 4096 rfl rfl).symm]
  refine Finset.sum_congr rfl fun k _ => ?_
  have hk := contrEquiv1_symm_val dot_S256x4096_S4096x64_S256x64_1_0_0_1_n_n 4096 rfl rfl k
  have el : dot_S256x4096_S4096x64_S256x64_1_0_0_1_n_n.lhsIdx (ix2 p q) ((contrEquiv1 dot_S256x4096_S4096x64_S256x64_1_0_0_1_n_n 4096 rfl rfl).symm k) = ix2 p k := funext fun x => Fin.ext (by
    match x with
    | ⟨0, _⟩ => exact mm1_lhs_0 _ _
    | ⟨1, _⟩ => exact (mm1_lhs_1 _ _).trans hk)
  have er : dot_S256x4096_S4096x64_S256x64_1_0_0_1_n_n.rhsIdx (ix2 p q) ((contrEquiv1 dot_S256x4096_S4096x64_S256x64_1_0_0_1_n_n 4096 rfl rfl).symm k) = ix2 k q := funext fun x => Fin.ext (by
    match x with
    | ⟨0, _⟩ => exact (mm1_rhs_0 _ _).trans hk
    | ⟨1, _⟩ => exact mm1_rhs_1 _ _)
  rw [el, er]

/-! ## The payloads -/

/-- The first body stores `X_block · W`: at `(p, q)`, `∑ d, X[p, d] * W[d, q]`. -/
theorem pay0_apply (v0 : Vec Ideal S2048x64 .f32) (v1 : Vec Ideal S64x64 .f32) (p : Fin 2048) (q : Fin 64) :
    k0_pay1 (F := Ideal) v0 v1 (ix2 p q) = ∑ d : Fin 64, v0 (ix2 p d) * v1 (ix2 d q) := by
  unfold k0_pay1
  exact mm0_apply v0 v1 p q

/-- The second body stores the bias row plus the four block products, added in order: at `(p, q)`,
    `(((b[0, q] + ∑ k, A₀[p, k] * S₀[k, q]) + ∑ k, A₁[p, k] * S₁[k, q]) + ∑ k, A₂[p, k] * S₂[k, q]) + ∑ k, A₃[p, k] * S₃[k, q]`. -/
theorem pay1_apply (v0 : Vec Ideal S1x64 .f32) (v2 : Vec Ideal S256x4096 .f32) (v3 : Vec Ideal S4096x64 .f32)
    (v8 : Vec Ideal S256x4096 .f32) (v9 : Vec Ideal S4096x64 .f32) (v13 : Vec Ideal S256x4096 .f32)
    (v14 : Vec Ideal S4096x64 .f32) (v18 : Vec Ideal S256x4096 .f32) (v19 : Vec Ideal S4096x64 .f32)
    (p : Fin 256) (q : Fin 64) :
    k1_pay1 (F := Ideal) v0 v2 v3 v8 v9 v13 v14 v18 v19 (ix2 p q)
      = (((v0 (ix2 0 q) + ∑ k : Fin 4096, v2 (ix2 p k) * v3 (ix2 k q)) + ∑ k : Fin 4096, v8 (ix2 p k) * v9 (ix2 k q))
          + ∑ k : Fin 4096, v13 (ix2 p k) * v14 (ix2 k q)) + ∑ k : Fin 4096, v18 (ix2 p k) * v19 (ix2 k q) := by
  unfold k1_pay1
  simp only [addf_apply, shapeCast_self, mm1_apply, broadcastTo_1b_ab_apply]

end Cert.Gcn

end
-- ==== Proof.KI_Value.lean ====
/-
  The value of the layer's program at the extended reals.

  Support pipeline: the block a grid point writes back is rows 2048·t … 2048·t+2047 of X·W, so after the eight points
  the support array holds X·W. Layer pipeline: point t reads rows 256·t … 256·t+255 of the adjacency matrix A through
  four windows, one per shard of 4096 columns, and the whole support matrix S and bias row b; its block is
  (((b + A₀·S₀) + A₁·S₁) + A₂·S₂) + A₃·S₃, the four partial products over consecutive ranges of the contracted index.
  Addition of extended reals is commutative and associative, so the four partial sums are the one sum over all 16384
  columns, and the bias may be added last: the block is rows 256·t … of A·S + b. The 64 blocks cover the output array.
  Composing through the boundaries of the run, the program's result is the layer's specification of the launch
  contents of X, A, W and b.
-/
import proofs.«181569_g66666482369178_cont_sun_m_896_4_alg».proof.Proof.KI_Launch
import proofs.«181569_g66666482369178_cont_sun_m_896_4_alg».proof.Proof.Spec
import proofs.«181569_g66666482369178_cont_sun_m_896_4_alg».proof.Proof.Payloads
import Idealize.ShloMosaic.Lib.Pipeline.Value
import Idealize.ShloMosaic.Lib.ValueIdx
import Idealize.ShloMosaic.Lib.ValueLayout

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-! ## The two specifications, index by index -/

/-- The support matrix X·W. -/
def G0 (X : S16384x64.Idx → Elt Ideal .f32) (W : S64x64.Idx → Elt Ideal .f32) : S16384x64.Idx → Elt Ideal .f32 :=
  fun i => Cert.Gcn.support X W ⟨(i 0).val, (i 0).isLt⟩ ⟨(i 1).val, (i 1).isLt⟩

/-- A·S + b for a bias row b of shape [1, 64]. -/
def G1 (A : S16384x16384.Idx → Elt Ideal .f32) (S : S16384x64.Idx → Elt Ideal .f32) (b : S1x64.Idx → Elt Ideal .f32) :
    S16384x64.Idx → Elt Ideal .f32 :=
  fun i => (∑ k : Fin 16384, A (ix2 (⟨(i 0).val, (i 0).isLt⟩ : Fin 16384) k) * S (ix2 k (⟨(i 1).val, (i 1).isLt⟩ : Fin 64)))
    + b (ix2 (0 : Fin 1) (⟨(i 1).val, (i 1).isLt⟩ : Fin 64))

/-! ## The support pipeline -/

/-- The block indices of the support pipeline's windows: the row windows move with the point, the weights stay. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The product of a block of 2048 rows of X (the rows from 2048·tv) with W is those rows of X·W. -/
theorem pay0_at (x0 : Vec Ideal S2048x64 .f32) (x1 : Vec Ideal S64x64 .f32)
    (X : S16384x64.Idx → Elt Ideal .f32) (W : S64x64.Idx → Elt Ideal .f32) (tv : Nat) (htv : tv < 8)
    (h0 : ∀ (p : Fin 2048) (d : Fin 64), x0 (ix2 p d) = X (ix2 (⟨tv * 2048 + p.val, by omega⟩ : Fin 16384) d))
    (h1 : ∀ (d q : Fin 64), x1 (ix2 d q) = W (ix2 d q)) (p : Fin 2048) (q : Fin 64) :
    k0_pay1 (F := Ideal) x0 x1 (ix2 p q) = G0 X W (ix2 (⟨tv * 2048 + p.val, by omega⟩ : Fin 16384) q) := by
  refine (Cert.Gcn.pay0_apply x0 x1 p q).trans ?_
  unfold G0 Cert.Gcn.support
  exact Finset.sum_congr rfl fun d _ => by rw [h0, h1]

variable (V : (c : Dev nD) → (b : Ref sig .tc) → Buf (Elt Ideal) ((c : Thread nD τ).loc b))

/-- What point t of the support pipeline writes back is block t of X·W. -/
theorem flushed0_eq (c : Dev nD) (t : Fin cfg0.N) :
    (dat0 V c).flushed 2 t = ((cfg0.win 2).blk t).view.read (Elt Ideal) (G0 (V c main_arg0) (V c main_arg2)) := by
  show (cfg0.win 2).cut (grid0.coords t) ((dat0 V c).after 2 t) = _
  rw [after0_2]
  unfold out0_2
  rw [View.canon_unit_zero hz]
  simp only [View.ld_unit_zero (S := S2048x64) hz, View.ld_unit_zero (S := S64x64) hz]
  obtain ⟨e00, e01, e10, e11, e20, e21⟩ := idx_facts0 t
  have ht : t.val < 8 := by have := t.isLt; have h8 : cfg0.N = 8 := N_0; omega
  funext j
  obtain ⟨p, q, rfl⟩ : ∃ (p : Fin 2048) (q : Fin 64), j = ix2 p q := ⟨j 0, j 1, eq_ix2 j⟩
  refine (pay0_at (iblk0 V c 0 t) (iblk0 V c 1 t) (V c main_arg0) (V c main_arg2) t.val ht ?_ ?_ p q).trans ?_
  · intro p d
    show V c main_arg0 (((cfg0.win 0).blk t).view.emb (ix2 p d)) = _
    refine congrArg (V c main_arg0) (funext fun a => Fin.ext ?_)
    match a with
    | ⟨0, _⟩ => show win0_0.index t (0 : Fin 2) * 2048 + 1 * p.val = t.val * 2048 + p.val; omega
    | ⟨1, _⟩ => show win0_0.index t (1 : Fin 2) * 64 + 1 * d.val = d.val; omega
  · intro d q
    show V c main_arg2 (((cfg0.win 1).blk t).view.emb (ix2 d q)) = _
    refine congrArg (V c main_arg2) (funext fun a => Fin.ext ?_)
    match a with
    | ⟨0, _⟩ => show win0_1.index t (0 : Fin 2) * 64 + 1 * d.val = d.val; omega
    | ⟨1, _⟩ => show win0_1.index t (1 : Fin 2) * 64 + 1 * q.val = q.val; omega
  · show _ = G0 (V c main_arg0) (V c main_arg2) (((cfg0.win 2).blk t).view.emb (ix2 p q))
    refine congrArg (G0 (V c main_arg0) (V c main_arg2)) (funext fun a => Fin.ext ?_)
    match a with
    | ⟨0, _⟩ => show t.val * 2048 + p.val = win0_2.index t (0 : Fin 2) * 2048 + 1 * p.val; omega
    | ⟨1, _⟩ => show q.val = win0_2.index t (1 : Fin 2) * 64 + 1 * q.val; omega

theorem mem_blk0 (t : Fin cfg0.N) (i : S16384x64.Idx) :
    i ∈ ((cfg0.win 2).blk t).view.set ↔ ∀ a : Fin 2, win0_2.index t a * S2048x64.size a ≤ (i a).val ∧ (i a).val < win0_2.index t a * S2048x64.size a + S2048x64.size a := by
  show i ∈ ((View.whole main_v0).slice (win0_2.rect t)).set ↔ _
  rw [View.set_slice_whole, Rect.mem_set_unit]
  exact Iff.rfl

/-- Row r of the support array is in the block of point r / 2048. -/
theorem cover0 (i : S16384x64.Idx) : ∃ t : Fin cfg0.N, (cfg0.win 2).flush t = true ∧ i ∈ ((cfg0.win 2).blk t).view.set := by
  have hi0 : (i 0).val < 16384 := (i 0).isLt
  have hi1 : (i 1).val < 64 := (i 1).isLt
  have hN : cfg0.N = 8 := N_0
  obtain ⟨t, htv⟩ : ∃ t : Fin cfg0.N, t.val = (i 0).val / 2048 := ⟨⟨(i 0).val / 2048, by omega⟩, rfl⟩
  obtain ⟨e00, e01, e10, e11, e20, e21⟩ := idx_facts0 t
  refine ⟨t, flush0_2 t, ?_⟩
  rw [mem_blk0]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 64 ≤ (i 1).val ∧ (i 1).val < win0_2.index t (1 : Fin 2) * 64 + 64; omega

/-- After its eight points the support pipeline's output array holds X·W. -/
theorem final0 (c : Dev nD) : (dat0 V c).arrAt 2 cfg0.N = G0 (V c main_arg0) (V c main_arg2) :=
  (dat0 V c).arrAt_eq_of_cover 2 _ (fun t _ => flushed0_eq V c t) cover0

/-! ## The layer pipeline -/

/-- The block indices of the layer pipeline's windows: the four adjacency windows take the point's band and the
    column shards 0, 1, 2, 3; the support matrix and the bias row stay; the output takes the point's band. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 1
    ∧ win1_2.index t (0 : Fin 2) = t.val ∧ win1_2.index t (1 : Fin 2) = 2
    ∧ win1_3.index t (0 : Fin 2) = t.val ∧ win1_3.index t (1 : Fin 2) = 3
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The bias row plus the four shard products, for the band of rows from 256·tv, is those rows of A·S + b: the four
    partial sums over the ranges 0…4095, 4096…8191, 8192…12287, 12288…16383 of the contracted index are the whole sum. -/
theorem pay1_at (x0 x1 x2 x3 : Vec Ideal S256x4096 .f32) (x4 : Vec Ideal S16384x64 .f32) (x5 : Vec Ideal S1x64 .f32)
    (A : S16384x16384.Idx → Elt Ideal .f32) (tv : Nat) (htv : tv < 64)
    (h0 : ∀ (p : Fin 256) (k : Fin 4096), x0 (ix2 p k) = A (ix2 (⟨tv * 256 + p.val, by omega⟩ : Fin 16384) (⟨k.val, by omega⟩ : Fin 16384)))
    (h1 : ∀ (p : Fin 256) (k : Fin 4096), x1 (ix2 p k) = A (ix2 (⟨tv * 256 + p.val, by omega⟩ : Fin 16384) (⟨4096 + k.val, by omega⟩ : Fin 16384)))
    (h2 : ∀ (p : Fin 256) (k : Fin 4096), x2 (ix2 p k) = A (ix2 (⟨tv * 256 + p.val, by omega⟩ : Fin 16384) (⟨8192 + k.val, by omega⟩ : Fin 16384)))
    (h3 : ∀ (p : Fin 256) (k : Fin 4096), x3 (ix2 p k) = A (ix2 (⟨tv * 256 + p.val, by omega⟩ : Fin 16384) (⟨12288 + k.val, by omega⟩ : Fin 16384)))
    (p : Fin 256) (q : Fin 64) :
    k1_pay1 (F := Ideal) (View.ld x5 r1_b) (View.ld x0 r1_a) (View.ld x4 r1_s0) (View.ld x1 r1_a) (View.ld x4 r1_s1)
        (View.ld x2 r1_a) (View.ld x4 r1_s2) (View.ld x3 r1_a) (View.ld x4 r1_s3) (ix2 p q)
      = G1 A x4 x5 (ix2 (⟨tv * 256 + p.val, by omega⟩ : Fin 16384) q) := by
  simp only [View.ld_unit_zero (S := S256x4096) hz, View.ld_unit_zero (S := S1x64) hz]
  refine (Cert.Gcn.pay1_apply x5 x0 (View.ld x4 r1_s0) x1 (View.ld x4 r1_s1) x2 (View.ld x4 r1_s2) x3 (View.ld x4 r1_s3) p q).trans ?_
  have l0 : ∀ k : Fin 4096, View.ld x4 r1_s0 (ix2 k q) = x4 (ix2 (⟨k.val, by omega⟩ : Fin 16384) q) := fun k => by
    show x4 (r1_s0.emb (ix2 k q)) = _
    refine congrArg x4 (funext fun a => Fin.ext ?_)
    match a with
    | ⟨0, _⟩ => show 0 + 1 * k.val = k.val; omega
    | ⟨1, _⟩ => show 0 + 1 * q.val = q.val; omega
  have l1 : ∀ k : Fin 4096, View.ld x4 r1_s1 (ix2 k q) = x4 (ix2 (⟨4096 + k.val, by omega⟩ : Fin 16384) q) := fun k => by
    show x4 (r1_s1.emb (ix2 k q)) = _
    refine congrArg x4 (funext fun a => Fin.ext ?_)
    match a with
    | ⟨0, _⟩ => show 4096 + 1 * k.val = 4096 + k.val; omega
    | ⟨1, _⟩ => show 0 + 1 * q.val = q.val; omega
  have l2 : ∀ k : Fin 4096, View.ld x4 r1_s2 (ix2 k q) = x4 (ix2 (⟨8192 + k.val, by omega⟩ : Fin 16384) q) := fun k => by
    show x4 (r1_s2.emb (ix2 k q)) = _
    refine congrArg x4 (funext fun a => Fin.ext ?_)
    match a with
    | ⟨0, _⟩ => show 8192 + 1 * k.val = 8192 + k.val; omega
    | ⟨1, _⟩ => show 0 + 1 * q.val = q.val; omega
  have l3 : ∀ k : Fin 4096, View.ld x4 r1_s3 (ix2 k q) = x4 (ix2 (⟨12288 + k.val, by omega⟩ : Fin 16384) q) := fun k => by
    show x4 (r1_s3.emb (ix2 k q)) = _
    refine congrArg x4 (funext fun a => Fin.ext ?_)
    match a with
    | ⟨0, _⟩ => show 12288 + 1 * k.val = 12288 + k.val; omega
    | ⟨1, _⟩ => show 0 + 1 * q.val = q.val; omega
  simp only [h0, h1, h2, h3, l0, l1, l2, l3]
  unfold G1
  exact Cert.Gcn.split4 (fun k => A (ix2 (⟨tv * 256 + p.val, by omega⟩ : Fin 16384) k) * x4 (ix2 k q)) (x5 (ix2 (0 : Fin 1) q))

/-- What point t of the layer pipeline writes back is block t of A·S + b. -/
theorem flushed1_eq (c : Dev nD) (t : Fin cfg1.N) :
    (dat1 V c).flushed 6 t = ((cfg1.win 6).blk t).view.read (Elt Ideal) (G1 (V c main_arg1) (V c main_v0) (V c main_v1)) := by
  show (cfg1.win 6).cut (grid1.coords t) ((dat1 V c).after 6 t) = _
  rw [after1_6]
  unfold out1_6
  rw [View.canon_unit_zero hz]
  obtain ⟨e00, e01, e10, e11, e20, e21, e30, e31, e40, e41, e50, e51, e60, e61⟩ := idx_facts1 t
  have ht : t.val < 64 := by have := t.isLt; have h64 : cfg1.N = 64 := N_1; omega
  have h4 : iblk1 V c 4 t = V c main_v0 := by
    funext y
    show V c main_v0 (((cfg1.win 4).blk t).view.emb y) = V c main_v0 y
    refine congrArg (V c main_v0) (funext fun a => Fin.ext ?_)
    match a with
    | ⟨0, _⟩ => show win1_4.index t (0 : Fin 2) * 16384 + 1 * (y 0).val = (y 0).val; omega
    | ⟨1, _⟩ => show win1_4.index t (1 : Fin 2) * 64 + 1 * (y 1).val = (y 1).val; omega
  have h5 : iblk1 V c 5 t = V c main_v1 := by
    funext y
    show V c main_v1 (((cfg1.win 5).blk t).view.emb y) = V c main_v1 y
    refine congrArg (V c main_v1) (funext fun a => Fin.ext ?_)
    match a with
    | ⟨0, _⟩ => show win1_5.index t (0 : Fin 2) * 1 + 1 * (y 0).val = (y 0).val; omega
    | ⟨1, _⟩ => show win1_5.index t (1 : Fin 2) * 64 + 1 * (y 1).val = (y 1).val; omega
  rw [h4, h5]
  funext j
  obtain ⟨p, q, rfl⟩ : ∃ (p : Fin 256) (q : Fin 64), j = ix2 p q := ⟨j 0, j 1, eq_ix2 j⟩
  refine (pay1_at (iblk1 V c 0 t) (iblk1 V c 1 t) (iblk1 V c 2 t) (iblk1 V c 3 t) (V c main_v0) (V c main_v1)
    (V c main_arg1) t.val ht ?_ ?_ ?_ ?_ p q).trans ?_
  · intro p k
    show V c main_arg1 (((cfg1.win 0).blk t).view.emb (ix2 p k)) = _
    refine congrArg (V c main_arg1) (funext fun a => Fin.ext ?_)
    match a with
    | ⟨0, _⟩ => show win1_0.index t (0 : Fin 2) * 256 + 1 * p.val = t.val * 256 + p.val; omega
    | ⟨1, _⟩ => show win1_0.index t (1 : Fin 2) * 4096 + 1 * k.val = k.val; omega
  · intro p k
    show V c main_arg1 (((cfg1.win 1).blk t).view.emb (ix2 p k)) = _
    refine congrArg (V c main_arg1) (funext fun a => Fin.ext ?_)
    match a with
    | ⟨0, _⟩ => show win1_1.index t (0 : Fin 2) * 256 + 1 * p.val = t.val * 256 + p.val; omega
    | ⟨1, _⟩ => show win1_1.index t (1 : Fin 2) * 4096 + 1 * k.val = 4096 + k.val; omega
  · intro p k
    show V c main_arg1 (((cfg1.win 2).blk t).view.emb (ix2 p k)) = _
    refine congrArg (V c main_arg1) (funext fun a => Fin.ext ?_)
    match a with
    | ⟨0, _⟩ => show win1_2.index t (0 : Fin 2) * 256 + 1 * p.val = t.val * 256 + p.val; omega
    | ⟨1, _⟩ => show win1_2.index t (1 : Fin 2) * 4096 + 1 * k.val = 8192 + k.val; omega
  · intro p k
    show V c main_arg1 (((cfg1.win 3).blk t).view.emb (ix2 p k)) = _
    refine congrArg (V c main_arg1) (funext fun a => Fin.ext ?_)
    match a with
    | ⟨0, _⟩ => show win1_3.index t (0 : Fin 2) * 256 + 1 * p.val = t.val * 256 + p.val; omega
    | ⟨1, _⟩ => show win1_3.index t (1 : Fin 2) * 4096 + 1 * k.val = 12288 + k.val; omega
  · show _ = G1 (V c main_arg1) (V c main_v0) (V c main_v1) (((cfg1.win 6).blk t).view.emb (ix2 p q))
    refine congrArg (G1 (V c main_arg1) (V c main_v0) (V c main_v1)) (funext fun a => Fin.ext ?_)
    match a with
    | ⟨0, _⟩ => show t.val * 256 + p.val = win1_6.index t (0 : Fin 2) * 256 + 1 * p.val; omega
    | ⟨1, _⟩ => show q.val = win1_6.index t (1 : Fin 2) * 64 + 1 * q.val; omega

theorem mem_blk1 (t : Fin cfg1.N) (i : S16384x64.Idx) :
    i ∈ ((cfg1.win 6).blk t).view.set ↔ ∀ a : Fin 2, win1_6.index t a * S256x64.size a ≤ (i a).val ∧ (i a).val < win1_6.index t a * S256x64.size a + S256x64.size a := by
  show i ∈ ((View.whole main_v2).slice (win1_6.rect t)).set ↔ _
  rw [View.set_slice_whole, Rect.mem_set_unit]
  exact Iff.rfl

/-- Row r of the output array is in the block of point r / 256. -/
theorem cover1 (i : S16384x64.Idx) : ∃ t : Fin cfg1.N, (cfg1.win 6).flush t = true ∧ i ∈ ((cfg1.win 6).blk t).view.set := by
  have hi0 : (i 0).val < 16384 := (i 0).isLt
  have hi1 : (i 1).val < 64 := (i 1).isLt
  have hN : cfg1.N = 64 := N_1
  obtain ⟨t, htv⟩ : ∃ t : Fin cfg1.N, t.val = (i 0).val / 256 := ⟨⟨(i 0).val / 256, by omega⟩, rfl⟩
  obtain ⟨e00, e01, e10, e11, e20, e21, e30, e31, e40, e41, e50, e51, e60, e61⟩ := idx_facts1 t
  refine ⟨t, flush1_6 t, ?_⟩
  rw [mem_blk1]
  intro a
  match a with
  | ⟨0, _⟩ => show win1_6.index t (0 : Fin 2) * 256 ≤ (i 0).val ∧ (i 0).val < win1_6.index t (0 : Fin 2) * 256 + 256; omega
  | ⟨1, _⟩ => show win1_6.index t (1 : Fin 2) * 64 ≤ (i 1).val ∧ (i 1).val < win1_6.index t (1 : Fin 2) * 64 + 64; omega

/-- After its 64 points the layer pipeline's output array holds A·S + b of the arrays it was entered with. -/
theorem final1 (c : Dev nD) : (dat1 V c).arrAt 6 cfg1.N = G1 (V c main_arg1) (V c main_v0) (V c main_v1) :=
  (dat1 V c).arrAt_eq_of_cover 6 _ (fun t _ => flushed1_eq V c t) cover1

end Cert.KernelIdeal.Val

end
-- ==== Proof.KI_Result.lean ====
/-
  The program's result: composing the boundaries of the run.

  The layer pipeline is entered with A as launched (nothing before it writes A), the support array at X·W of the launch
  contents (what the support pipeline left), and the bias row's copy at the bias vector reshaped to one row. Its output
  array therefore ends at A·(X·W) + b of the launch contents, which is the layer's specification.
-/
import proofs.«181569_g66666482369178_cont_sun_m_896_4_alg».proof.Proof.KI_Value
import proofs.«181569_g66666482369178_cont_sun_m_896_4_alg».proof.Proof.KI_Frame

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The adjacency array reaches the layer pipeline as launched. -/
theorem Vr2_arg1 (c : Dev nD) : Vr2 m c main_arg1 = m ((c : Thread nD τ).loc main_arg1) :=
  (W2_of_ne m c main_arg1 (by decide)).trans (W1_of_ne m c main_arg1 (by decide))

/-- The support array reaches the layer pipeline at X·W of the launch contents. -/
theorem Vr2_v0 (c : Dev nD) : Vr2 m c main_v0 = G0 (m ((c : Thread nD τ).loc main_arg0)) (m ((c : Thread nD τ).loc main_arg2)) :=
  (W2_of_ne m c main_v0 (by decide)).trans ((W1_arr m c 2).trans (final0 (Vr0 m) c))

/-- The bias row's copy reads, at (0, q), the bias vector at q. -/
theorem Vr2_v1 (c : Dev nD) (q : Fin 64) :
    Vr2 m c main_v1 (ix2 (0 : Fin 1) q) = m ((c : Thread nD τ).loc main_arg3) (ix1 q) := by
  have h : StableHlo.after [StableHlo.reshape main_arg3 main_v1 rfl shapeCasts_S64_S1x64] (W1 m c) (Proc.devRef .tc main_v1)
      = fun i => shapeCast S1x64 (W1 m c (Proc.devRef .tc main_arg3)) shapeCasts_S64_S1x64 i := by
    simp only [StableHlo.after_cons, StableHlo.after_nil]
    exact StableHlo.reshape_result main_arg3 main_v1 rfl shapeCasts_S64_S1x64 _ _ (W1 m c)
  show StableHlo.after [StableHlo.reshape main_arg3 main_v1 rfl shapeCasts_S64_S1x64] (W1 m c) (Proc.devRef .tc main_v1) (ix2 (0 : Fin 1) q) = _
  rw [h]
  show shapeCast S1x64 (W1 m c (Proc.devRef .tc main_arg3)) shapeCasts_S64_S1x64 (ix2 (0 : Fin 1) q) = _
  rw [W1_of_ne m c main_arg3 (by decide)]
  exact shapeCast_a_1a_apply _ _ 0 q

/-- The output array ends at the layer's specification of the launch contents. -/
theorem result (c : Dev nD) : W3 m c (Proc.devRef .tc main_v2)
    = Cert.Gcn.out (m ((c : Thread nD τ).loc main_arg0)) (m ((c : Thread nD τ).loc main_arg1)) (m ((c : Thread nD τ).loc main_arg2)) (m ((c : Thread nD τ).loc main_arg3)) := by
  rw [W3_out, final1 (Vr2 m) c, Vr2_arg1, Vr2_v0]
  funext i
  obtain ⟨r, q, rfl⟩ : ∃ (r : Fin 16384) (q : Fin 64), i = ix2 r q := ⟨i 0, i 1, eq_ix2 i⟩
  rw [Cert.Gcn.out_ix2]
  unfold G1
  rw [Vr2_v1]
  unfold G0
  rfl

/-- THE RUN, READ: the result at the specification, the arguments as launched. -/
theorem run_value : θ_run defs (onTc (τ := τ) (main (F := Ideal))) ⟨m, fun _ => 0, ρ⟩ (fun r => ∀ c : Dev nD,
      r.2.mem ((c.tc : Thread nD τ).loc main_v2)
        = Cert.Gcn.out (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
      ⟨(h c _ (mem_uc main_v2 (by decide))).trans (result m c),
       (h c _ (mem_uc main_arg0 (by decide))).trans (W3_main_arg0 m c),
       (h c _ (mem_uc main_arg1 (by decide))).trans (W3_main_arg1 m c),
       (h c _ (mem_uc main_arg2 (by decide))).trans (W3_main_arg2 m c),
       (h c _ (mem_uc main_arg3 (by decide))).trans (W3_main_arg3 m c)⟩)
    (run_all m ρ)

end Cert.KernelIdeal.Val

end
-- ==== Proof.RefSide.lean ====
import proofs.«181569_g66666482369178_cont_sun_m_896_4_alg».proof.Proof.Gen.ReferenceIdeal.Read
import proofs.«181569_g66666482369178_cont_sun_m_896_4_alg».proof.Proof.Spec
import Idealize.ShloMosaic.Lib.ValueIdx
import Idealize.ShloMosaic.PureOps.Ideal.Laws

/-!
# The reference program computes the layer

The reference multiplies `X` by `W`, multiplies `A` by the product, and adds the bias row broadcast over the
rows. Read at an index `i = (p, q)` that is `(∑ k, A[p, k] * ∑ d, X[k, d] * W[d, q]) + b[q]`, which is the
specification `Cert.Gcn.out` term for term: the only work is to identify the operand indices of the two
contractions and of the two broadcasts with the indices built from coordinates.
-/

noncomputable section

open scoped BigOperators

namespace Cert.Gcn

open Idealize.ShloMosaic Idealize.ShloMosaic.ValueIdx Cert.ReferenceIdeal Cert.ReferenceIdeal.Read

/-- The reference's result is the layer `out` of its four arguments. -/
theorem ref_eq (x0 : (⟨Cert.ReferenceIdeal.S16384x64, .f32⟩ : BufTy).Contents (Elt Ideal))
    (x1 : (⟨Cert.ReferenceIdeal.S16384x16384, .f32⟩ : BufTy).Contents (Elt Ideal))
    (x2 : (⟨Cert.ReferenceIdeal.S64x64, .f32⟩ : BufTy).Contents (Elt Ideal))
    (x3 : (⟨Cert.ReferenceIdeal.S64, .f32⟩ : BufTy).Contents (Elt Ideal)) :
    Cert.ReferenceIdeal.Read.val_main_v4 (F := Ideal) x0 x1 x2 x3 = Cert.Gcn.out x0 x1 x2 x3 := by
  funext i
  -- the left operand of the outer contraction is read at row `i 0`, column `k`
  have hl1 : ∀ k : Fin 16384, lidx_main_v1 i k = ix2 (i 0) k := fun k => funext fun a => by
    match a with
    | ⟨0, _⟩ => rfl
    | ⟨1, _⟩ => rfl
  -- the inner contraction, read at row `k`, column `i 1`, reads `X` at `(k, d)` and `W` at `(d, i 1)`
  have hl0 : ∀ (k : Fin 16384) (d : Fin 64), lidx_main_v0 (ridx_main_v1 i k) d = ix2 k d := fun k d => funext fun a => by
    match a with
    | ⟨0, _⟩ => rfl
    | ⟨1, _⟩ => rfl
  have hr0 : ∀ (k : Fin 16384) (d : Fin 64), ridx_main_v0 (ridx_main_v1 i k) d = ix2 d (i 1) := fun k d => funext fun a => by
    match a with
    | ⟨0, _⟩ => rfl
    | ⟨1, _⟩ => rfl
  -- the bias, broadcast twice, is read at column `i 1`
  have hb : idx_main_v2 (idx_main_v3 i) = ix1 (i 1) := funext fun a => by
    match a with
    | ⟨0, _⟩ => rfl
  rw [val_main_v4_apply, val_main_v1_apply, val_main_v3_apply, val_main_v2_apply, hb]
  show (∑ k : Fin 16384, x1 (lidx_main_v1 i k) * val_main_v0 (F := Ideal) x0 x2 (ridx_main_v1 i k)) + x3 (ix1 (i 1))
    = (∑ k : Fin 16384, x1 (ix2 (i 0) k) * support x0 x2 k (i 1)) + x3 (ix1 (i 1))
  refine congrArg (· + x3 (ix1 (i 1))) (Finset.sum_congr rfl fun k _ => ?_)
  rw [val_main_v0_apply, hl1 k]
  refine congrArg (x1 (ix2 (i 0) k) * ·) (Finset.sum_congr rfl fun d _ => ?_)
  rw [hl0 k d, hr0 k d]
  rfl

end Cert.Gcn

end
-- ==== Proof.lean ====
/-
  One layer of a graph convolution, out = A·(X·W) + b, on a dense 16384×16384 adjacency matrix A: the kernel against
  its reference, over the extended reals.

  The kernel computes the support matrix S = X·W in blocks of 2048 rows, then streams A through in bands of 256 rows,
  each band read as four shards of 4096 columns, and accumulates b + A₀·S₀ + A₁·S₁ + A₂·S₂ + A₃·S₃; the reference
  computes A·S + b in one contraction. Addition of extended reals is commutative and associative, so splitting the
  contraction into four consecutive ranges and adding the bias first changes nothing: the two results agree index by
  index, with no finiteness assumption. The frames: each program runs to the end from any memory and leaves its four
  arguments as launched. The idealized kernel is the kernel's own text read over the extended reals: nothing to
  preserve.
-/
import proofs.«181569_g66666482369178_cont_sun_m_896_4_alg».proof.Defs
import proofs.«181569_g66666482369178_cont_sun_m_896_4_alg».proof.Proof.Gen.Kernel
import proofs.«181569_g66666482369178_cont_sun_m_896_4_alg».proof.Proof.Gen.KernelIdeal
import proofs.«181569_g66666482369178_cont_sun_m_896_4_alg».proof.Proof.Gen.ReferenceIdeal
import proofs.«181569_g66666482369178_cont_sun_m_896_4_alg».proof.Proof.Gen.Pre_finite_inputs
import proofs.«181569_g66666482369178_cont_sun_m_896_4_alg».proof.Proof.Gen.ReferenceIdeal.Run
import proofs.«181569_g66666482369178_cont_sun_m_896_4_alg».proof.Proof.Gen.ReferenceIdeal.Read
import proofs.«181569_g66666482369178_cont_sun_m_896_4_alg».proof.Proof.K_Frame
import proofs.«181569_g66666482369178_cont_sun_m_896_4_alg».proof.Proof.KI_Frame
import proofs.«181569_g66666482369178_cont_sun_m_896_4_alg».proof.Proof.KI_Result
import proofs.«181569_g66666482369178_cont_sun_m_896_4_alg».proof.Proof.RefSide
import Idealize.ShloMosaic.Adequacy
import Idealize.ShloMosaic.Init

noncomputable section

namespace Cert.Proof

open Idealize.ShloMosaic Idealize.SL.Sem

/-- The kernel as printed runs to the end and leaves its arguments as launched. -/
theorem frame_Kernel : @Cert.frame_Kernel Cert.Kernel.Gen.facts Cert.Pre_finite_inputs.Gen.facts :=
  fun m ρ _ => Cert.Kernel.Fr.frame (F := Bits) m ρ

/-- So does the kernel read over the extended reals. -/
theorem frame_KernelIdeal : @Cert.frame_KernelIdeal Cert.KernelIdeal.Gen.facts Cert.Pre_finite_inputs.Gen.facts :=
  fun m ρ _ => Cert.KernelIdeal.Fr.frame (F := Ideal) m ρ

/-- The reference is host operations only: its run, with the result dropped. -/
theorem frame_ReferenceIdeal : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- Both programs end with the layer's specification of the arguments in their result arrays. -/
theorem algebraic : @Cert.algebraic_KernelIdeal_ReferenceIdeal Cert.KernelIdeal.Gen.facts Cert.ReferenceIdeal.Gen.facts Cert.Pre_finite_inputs.Gen.facts :=
  fun m ρ m' ρ' _ hagree =>
    ⟨fun c => Cert.Gcn.out (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3)),
      Cert.KernelIdeal.Val.run_value m ρ,
      (θ_run Cert.ReferenceIdeal.defs _ _).mono (fun _ h c =>
        ⟨by rw [(h c).1, Cert.ReferenceIdeal.Read.val_main_v4_eq, Cert.Gcn.ref_eq, (hagree c).1, (hagree c).2.1, (hagree c).2.2.1, (hagree c).2.2.2],
          (h c).2⟩)
        (Cert.ReferenceIdeal.Value.run (F := Ideal) m' ρ')⟩

theorem claim : Cert.Claim := ⟨Cert.Kernel.Gen.facts, Cert.KernelIdeal.Gen.facts, Cert.ReferenceIdeal.Gen.facts, Cert.Pre_finite_inputs.Gen.facts,
  frame_Kernel, frame_KernelIdeal, frame_ReferenceIdeal, trivial, algebraic⟩

end Cert.Proof

end
